-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S64x64 : Shape := ⟨2, ![64, 64]⟩
abbrev S64 : Shape := ⟨1, ![64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S16x2048x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S16x2048x64 : Shape := ⟨3, ![16, 2048, 64]⟩
abbrev S64x64 : Shape := ⟨2, ![64, 64]⟩
abbrev S64 : Shape := ⟨1, ![64]⟩
abbrev S64x128 : Shape := ⟨2, ![64, 128]⟩
abbrev S128 : Shape := ⟨1, ![128]⟩
abbrev S1x512x64 : Shape := ⟨3, ![1, 512, 64]⟩
abbrev S1x2048x64 : Shape := ⟨3, ![1, 2048, 64]⟩
abbrev S2048x64 : Shape := ⟨2, ![2048, 64]⟩
abbrev S2048x128 : Shape := ⟨2, ![2048, 128]⟩
abbrev S1x128 : Shape := ⟨2, ![1, 128]⟩
abbrev S512x64 : Shape := ⟨2, ![512, 64]⟩
abbrev S1x64 : Shape := ⟨2, ![1, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S16x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S64x64, .f32⟩
  | .local _ .vmem, ⟨5, _⟩ => ⟨S64, .f32⟩
  | .local _ .vmem, ⟨6, _⟩ => ⟨S64x128, .f32⟩
  | .local _ .vmem, ⟨7, _⟩ => ⟨S128, .f32⟩
  | .local _ .vmem, ⟨8, _⟩ => ⟨S1x512x64, .f32⟩
  | .local _ .vmem, ⟨9, _⟩ => ⟨S1x512x64, .f32⟩
  | .local _ .vmem, ⟨10, _⟩ => ⟨S2048x64, .f32⟩
  | .local _ .vmem, ⟨11, _⟩ => ⟨S2048x64, .bf16⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  concatenates_S64x64_S64x64_S64x128_d1 : Shape.Concatenates [S64x64, S64x64] S64x128 1
  concatenates_S64_S64_S128_d0 : Shape.Concatenates [S64, S64] S128 0
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bitsLt_bf16_f32 : FTy.bits .bf16 < FTy.bits .f32
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S2048x128 : S1x128.Broadcasts S2048x128
  slices_S2048x128_o0_0_S2048x64 : S2048x128.Slices ![0, 0] S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  slices_S2048x128_o0_64_S2048x64 : S2048x128.Slices ![0, 64] S2048x64
  packedbf16_S2048x64_S2048x64_0_0 : (Rect.unit (s := S2048x64) ![0, 0] S2048x64.size inb_S2048x64_S2048x64_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x512x64 : S512x64.ShapeCasts S1x512x64
  dot_S2048x64_S64x128_S2048x128_1_0_0_1_n_n_wf : DotDims.WF S2048x64 S64x128 S2048x128 [1] [0] [0] [1] [] []
  dot_S512x64_S64x64_S512x64_1_0_0_1_n_n_wf : DotDims.WF S512x64 S64x64 S512x64 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x64.size a ≤ S16x2048x64.size a
  hwx0_6 : ∀ i : grid0.Coords, EltTy.bits .f32 = 32 ∨ (Rect.block (s := S16x2048x64) S1x512x64.size (cc0_transform_6 i) (hinb0_6 i)).WholeWords (EltTy.packing .f32)

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x512x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S64x64 : Shape := ⟨2, ![64, 64]⟩
abbrev S64 : Shape := ⟨1, ![64]⟩
abbrev S1x1x64 : Shape := ⟨3, ![1, 1, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 38
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S16x2048x64, .f32⟩
  | .hbm, ⟨8, _⟩ => ⟨S1x1x64, .f32⟩
  | .hbm, ⟨9, _⟩ => ⟨S16x2048x64, .f32⟩
  | .hbm, ⟨10, _⟩ => ⟨S16x2048x64, .f32⟩
  | .hbm, ⟨11, _⟩ => ⟨S16x2048x64, .f32⟩
  | .hbm, ⟨12, _⟩ => ⟨S1x1x64, .f32⟩
  | .hbm, ⟨13, _⟩ => ⟨S16x2048x64, .f32⟩
  | .hbm, ⟨14, _⟩ => ⟨S16x2048x64, .f32⟩
  | .hbm, ⟨15, _⟩ => ⟨S16x2048x64, .f32⟩
  | .hbm, ⟨16, _⟩ => ⟨S1x1x64, .f32⟩
  | .hbm, ⟨17, _⟩ => ⟨S16x2048x64, .f32⟩
  | .hbm, ⟨18, _⟩ => ⟨S16x2048x64, .f32⟩
  | .hbm, ⟨19, _⟩ => ⟨S16x2048x2048, .f32⟩
  | .hbm, ⟨20, _⟩ => ⟨S_, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048, .f32⟩
  | .hbm, ⟨25, _⟩ => ⟨S_, .f32⟩
  | .hbm, ⟨26, _⟩ => ⟨S16x2048, .f32⟩
  | .hbm, ⟨27, _⟩ => ⟨S16x2048, .f32⟩
  | .hbm, ⟨28, _⟩ => ⟨S16x2048x1, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S16x2048x2048, .f32⟩
  | .hbm, ⟨36, _⟩ => ⟨S16x2048x2048, .f32⟩
  | .hbm, ⟨37, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S16x2048x64_0_1_2 : S1x1x64.BroadcastsInDim S16x2048x64 (![0, 1, 2] : Fin 3 → Fin S16x2048x64.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S64x64_S16x2048x64_2_0_01_1_n_n_wf : DotDims.WF S16x2048x64 S64x64 S16x2048x64 [2] [0] [0, 1] [1] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S64x64_S16x2048x64_2_0_01_1_n_n : DotDims S16x2048x64 S64x64 S16x2048x64 where
  lhsContracting := [2]
  rhsContracting := [0]
  lhsNonContracting := [0, 1]
  rhsNonContracting := [1]
  lhsBatch := []
  rhsBatch := []
  wf := dot_S16x2048x64_S64x64_S16x2048x64_2_0_01_1_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.FrameRunBits.lean ====
/-
  The kernel body of the attention launch, run once per grid point, and the program around the launch.

  The grid is (batch b, query tile qi), 16 × 4 points in row-major order, so point t has qi = t mod 4. At a point
  with qi = 0 the body first projects the whole batch element to keys and values and stores them in its two scratch
  buffers; at every point it then reads the scratch buffers back, forms the query tile's scores against all keys,
  normalizes them, and stores the tile of the result. So there are two runs of the body:
    * the first tile of a batch element: the scratch buffers hold anything on entry and end at the keys and values of
      the key/value block; the output tile is computed from those;
    * a later tile: the scratch buffers hold what an earlier point left, are only read, and the output tile is
      computed from them.
  Every input block is left as found. Before the launch the host concatenates the key and value weights (and
  biases) into the fused operands; no argument array is written.
-/
import proofs.«125491_j31645319037145_2_alg».proof.Proof.Gen.Kernel.Launch
import proofs.«125491_j31645319037145_2_alg».proof.Proof.Gen.Kernel.Skeleton
import proofs.«125491_j31645319037145_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- The buffers of core `c` as the launch finds them: after the two concatenations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is the two concatenations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The concatenations write only their own results: an argument array reaches the launch as it was. -/
theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.binary_writes, Finset.mem_singleton]
    exact ⟨StableHlo.devRef_ne_of_ne h0, StableHlo.devRef_ne_of_ne h1⟩))

/-! ## The windows' blocks -/

/-- The block of window `w` at point `t`, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, fetched there or not, as long as the
    body leaves the block in place (one statement per input window). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The branch of the body -/

/-- The body's test "this is the first query tile of its batch element", from the grid coordinates. -/
abbrev cond0 (i : grid0.Coords) : Prop := (Scalar.cmpi .ne (Scalar.extui (Scalar.cmpi .eq (BitVec.ofNat 32 (i 1).val) 0#32)) 0#32) = 1#1
/-- It holds at the points that are multiples of 4. -/
theorem hcond0 : ∀ t : Fin cfg0.N, cond0 (grid0.coords t) ↔ t.val % 4 = 0 :=
  (by decide +kernel : ∀ t : Fin grid0.N, cond0 (grid0.coords t) ↔ t.val % 4 = 0)

/-! ## The staging and scratch buffers at a point -/

abbrev ms0 (t : Fin cfg0.N) : Memref sig .tc .vmem S1x512x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512x64 .f32 := win0_6.stage (cfg0.slots t 6)
abbrev hs6 (t : Fin cfg0.N) : (ms6 t).IsWhole := hstage0_6 ((cfg0.slots t 6).cast nbuf0_6)
/-- The key scratch and the value scratch. -/
abbrev scK : Memref sig .tc .vmem S2048x64 .f32 := Memref.whole cc0_scratch0
abbrev scV : Memref sig .tc .vmem S2048x64 .bf16 := Memref.whole cc0_scratch1

/-! ## Whole-buffer loads and stores -/

theorem z1 : (![0] : Fin 1 → ℕ) = fun _ => 0 := by funext a; fin_cases a; rfl
theorem z2 : (![0, 0] : Fin 2 → ℕ) = fun _ => 0 := by funext a; fin_cases a <;> rfl
theorem z3 : (![0, 0, 0] : Fin 3 → ℕ) = fun _ => 0 := by funext a; fin_cases a <;> rfl

/-- One store over the whole buffer leaves its payload there. -/
theorem read_one_store {S : Shape} {e : EltTy} {off : Fin S.rank → ℕ} (hz : off = fun _ => 0) (inb : ∀ a, off a + S.size a ≤ S.size a)
    (v : View sig .tc .vmem S e) (f : v.ty.Contents (Elt F)) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩), View.canon_unit_zero hz]

/-- A load over the whole buffer reads its contents. -/
theorem readAt_whole {S : Shape} {e : EltTy} {off : Fin S.rank → ℕ} (hz : off = fun _ => 0) (inb : ∀ a, off a + S.size a ≤ S.size a)
    (v : View sig .tc .vmem S e) (f : v.ty.Contents (Elt F)) :
    View.readAt (Elt F) v (Rect.unit off S.size inb).toLoadRect f = v.read (Elt F) f := by
  rw [View.readAt_eq_ld, View.ld_unit_zero hz]

/-! ## The two runs of the body -/

set_option maxHeartbeats 4000000 in
/-- The first query tile of a batch element: the scratch buffers end at the keys and values of the key/value
    block, and the output tile is computed from those. -/
theorem run_first (c : Dev nD) (E : Set ℕ) (i : grid0.Coords)
    (arg2 : Memref sig .tc .vmem S1x512x64 .f32) (harg2 : arg2.IsWhole) (arg3 : Memref sig .tc .vmem S1x2048x64 .f32) (harg3 : arg3.IsWhole)
    (arg4 : Memref sig .tc .vmem S64x64 .f32) (harg4 : arg4.IsWhole) (arg5 : Memref sig .tc .vmem S64 .f32) (harg5 : arg5.IsWhole)
    (arg6 : Memref sig .tc .vmem S64x128 .f32) (harg6 : arg6.IsWhole) (arg7 : Memref sig .tc .vmem S128 .f32) (harg7 : arg7.IsWhole)
    (arg8 : Memref sig .tc .vmem S1x512x64 .f32) (harg8 : arg8.IsWhole) (arg9 : Memref sig .tc .vmem S2048x64 .f32) (harg9 : arg9.IsWhole)
    (arg10 : Memref sig .tc .vmem S2048x64 .bf16) (harg10 : arg10.IsWhole) (hc : cond0 i)
    (x0 : Vec F S1x512x64 .f32) (x1 : Vec F S1x2048x64 .f32) (x2 : Vec F S64x64 .f32) (x3 : Vec F S64 .f32) (x4 : Vec F S64x128 .f32) (x5 : Vec F S128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k0_pay4 x0 x2 x3 (k0_pay2 x1 x4 x5) (k0_pay3 x1 x4 x5))
            ∗ owns (c : Thread nD τ) arg9 fullShare (k0_pay2 x1 x4 x5) ∗ owns (c : Thread nD τ) arg10 fullShare (k0_pay3 x1 x4 x5)) -∗ K ⟨⟩))
      ⊢ wp frame (wpE (defs₀ (F := F)) Variants.none c none) E
          (cc0__attn_kernel i arg2 harg2 arg3 harg3 arg4 harg4 arg5 harg5 arg6 harg6 arg7 harg7 arg8 harg8 arg9 harg9 arg10 harg10) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, Hk⟩
  subst hf0 hf1 hf2 hf3 hf4 hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    rw [read_one_store (S := S1x512x64) z3]
    unfold run_first.sl.v13 run_first.sl.v14 run_first.sl.H9_1 run_first.sl.H10_1
    rw [View.readCov_unit_zero (S := S2048x64) _ z2, View.readCov_unit_zero (S := S2048x64) _ z2]
    simp only [readAt_whole (S := S1x512x64) z3, readAt_whole (S := S1x2048x64) z3, readAt_whole (S := S64x64) z2, readAt_whole (S := S64) z1, readAt_whole (S := S64x128) z2, readAt_whole (S := S128) z1, readAt_whole (S := S2048x64) z2]
  isplitl [H9]
  · iexists _; isplitr
    swap; · iexact H9
    ipureintro
    unfold run_first.sl.H9_1
    rw [read_one_store (S := S2048x64) z2]
    simp only [readAt_whole (S := S1x512x64) z3, readAt_whole (S := S1x2048x64) z3, readAt_whole (S := S64x64) z2, readAt_whole (S := S64) z1, readAt_whole (S := S64x128) z2, readAt_whole (S := S128) z1, readAt_whole (S := S2048x64) z2]
  iexists _; isplitr
  swap; · iexact H10
  ipureintro
  unfold run_first.sl.H10_1
  rw [read_one_store (S := S2048x64) z2]
  simp only [readAt_whole (S := S1x512x64) z3, readAt_whole (S := S1x2048x64) z3, readAt_whole (S := S64x64) z2, readAt_whole (S := S64) z1, readAt_whole (S := S64x128) z2, readAt_whole (S := S128) z1, readAt_whole (S := S2048x64) z2]

set_option maxHeartbeats 4000000 in
/-- A later query tile: the scratch buffers, at what an earlier point left in them, are only read; the output tile
    is computed from them. -/
theorem run_later (c : Dev nD) (E : Set ℕ) (i : grid0.Coords)
    (arg2 : Memref sig .tc .vmem S1x512x64 .f32) (harg2 : arg2.IsWhole) (arg3 : Memref sig .tc .vmem S1x2048x64 .f32) (harg3 : arg3.IsWhole)
    (arg4 : Memref sig .tc .vmem S64x64 .f32) (harg4 : arg4.IsWhole) (arg5 : Memref sig .tc .vmem S64 .f32) (harg5 : arg5.IsWhole)
    (arg6 : Memref sig .tc .vmem S64x128 .f32) (harg6 : arg6.IsWhole) (arg7 : Memref sig .tc .vmem S128 .f32) (harg7 : arg7.IsWhole)
    (arg8 : Memref sig .tc .vmem S1x512x64 .f32) (harg8 : arg8.IsWhole) (arg9 : Memref sig .tc .vmem S2048x64 .f32) (harg9 : arg9.IsWhole)
    (arg10 : Memref sig .tc .vmem S2048x64 .bf16) (harg10 : arg10.IsWhole) (hc : ¬cond0 i)
    (x0 : Vec F S1x512x64 .f32) (x1 : Vec F S1x2048x64 .f32) (x2 : Vec F S64x64 .f32) (x3 : Vec F S64 .f32) (x4 : Vec F S64x128 .f32) (x5 : Vec F S128 .f32)
    (ks : Vec F S2048x64 .f32) (vs : Vec F S2048x64 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare ks ∗ owns (c : Thread nD τ) arg10 fullShare vs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k0_pay4 x0 x2 x3 ks vs)
            ∗ owns (c : Thread nD τ) arg9 fullShare ks ∗ owns (c : Thread nD τ) arg10 fullShare vs) -∗ K ⟨⟩))
      ⊢ wp frame (wpE (defs₀ (F := F)) Variants.none c none) E
          (cc0__attn_kernel i arg2 harg2 arg3 harg3 arg4 harg4 arg5 harg5 arg6 harg6 arg7 harg7 arg8 harg8 arg9 harg9 arg10 harg10) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, ⟨%f10, %hf10, H10⟩, Hk⟩
  subst hf0 hf1 hf2 hf3 hf4 hf5 hf9 hf10
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    rw [read_one_store (S := S1x512x64) z3]
    simp only [readAt_whole (S := S1x512x64) z3, readAt_whole (S := S1x2048x64) z3, readAt_whole (S := S64x64) z2, readAt_whole (S := S64) z1, readAt_whole (S := S64x128) z2, readAt_whole (S := S128) z1, readAt_whole (S := S2048x64) z2]
  isplitl [H9]
  · iexists f9; isplitr; · ipureintro; rfl
    iexact H9
  iexists f10; isplitr; · ipureintro; rfl
  iexact H10

end Cert.Kernel.Hand

end
-- ==== Proof.LibSharedFrameTrack.lean ====
/-
  Over the library only: the frame run of a program with one kernel region whose windows may SHARE an array, when
  the kernel CARRIES values between grid points in scratch buffers of its own.

  The region's invariant is whatever the proof states point by point about the scoped buffers that are no staging
  buffer (the kernel's scratch): before the first point they hold anything (the scoped rest yields the invariant at
  point 0), and after the last point what they hold is forgotten (the invariant at the last point yields the scoped
  rest back). The kernel has no semaphore of its own. As for distinct arrays, the caller says how the distinct
  buffers behind the windows' arrays, each whole at the full share at the region-entry contents, make the proof data's
  arrays at entry (an array read through several input windows is split among them, each holding a part of the
  share). The conclusion is the library's frame post: every window's array ends at what the proof data compute, every
  other unscoped buffer as the region found it.
-/
import Idealize.ShloMosaic.Lib.Pipeline.Frame

noncomputable section

namespace SharedFrameTrack

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The frame run for windows that may share arrays, with an invariant that tracks the kernel's scratch: the layout
    facts but for the arrays' distinctness, the body obligation at every point, nothing owed, the program up to its
    region (`hmain`), how the buffers behind the arrays make the proof data's arrays at entry (`hsplit`), and the
    invariant's two ends (`hin`, `hout`). -/
theorem θ_run_frame_shared_track (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N)
      ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g)
      (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (X := fun _ => iprop(emp)) (Y := fun _ => iprop(emp))
    (Z := fun c => unscopedRest (Ix := Unit) (Name := ℕ) (U := UR sig nD τ) (Lvl := ℕ) (cfgs p).spec c (V c))
    (hX := fun c => by
      iintro HU
      isplitr; · iempintro
      iexact HU)
    (hin := fun c => (show iprop(emp ∗ scopedRest (Ix := Unit) (Name := ℕ) (U := UR sig nD τ) (Lvl := ℕ) (Val := Val) (cfgs p).spec c)
        ⊢ (scopedRest (Ix := Unit) (Name := ℕ) (U := UR sig nD τ) (Lvl := ℕ) (Val := Val) (cfgs p).spec c : sProp 𝕄) from by
      iintro ⟨-, HR⟩; iexact HR).trans (hin c))
    (hout := fun c => (hout c).trans (by
      iintro HR
      isplitr; · iempintro
      iexact HR))
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨(h c).1, (h c).2⟩)

end SharedFrameTrack

end
-- ==== Proof.FrameBits.lean ====
/-
  The attention launch point by point: what each buffer holds after every grid point, and the run of the program.

  Points run in row-major order over (batch b, query tile qi), t = 4·b + qi. The two scratch buffers hold, after
  point t, the keys and values projected at the last point t' ≤ t with qi = 0 (the first tile of the same batch
  element): they are written there and only read at the three later tiles. The output tile at point t is the
  body's result on the query block, the query weight and bias, and those scratch contents. The input array x is
  read through two windows (the query tile and the whole batch element): each holds half of the share of x.
-/
import proofs.«125491_j31645319037145_2_alg».proof.Proof.FrameRunBits
import proofs.«125491_j31645319037145_2_alg».proof.Proof.LibSharedFrameTrack

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers and the output tile hold -/

/-- The keys and values the body projects at point `t` from the key/value block, the fused weight and the fused bias. -/
def kvAt (c : Dev nD) (t : Fin cfg0.N) : Vec F S2048x64 .f32 × Vec F S2048x64 .bf16 :=
  (k0_pay2 (iblk m c 1 t) (iblk m c 4 t) (iblk m c 5 t), k0_pay3 (iblk m c 1 t) (iblk m c 4 t) (iblk m c 5 t))

/-- The scratch buffers after point `n`: projected afresh at a first tile, kept at a later one. -/
def scr (c : Dev nD) : (n : ℕ) → n < cfg0.N → Vec F S2048x64 .f32 × Vec F S2048x64 .bf16
  | 0, hn => kvAt m c ⟨0, hn⟩
  | n + 1, hn => if (n + 1) % 4 = 0 then kvAt m c ⟨n + 1, hn⟩ else scr c n (Nat.lt_of_succ_lt hn)

theorem scr_first (c : Dev nD) (t : Fin cfg0.N) (h : t.val % 4 = 0) : scr m c t.val t.isLt = kvAt m c t := by
  obtain ⟨n, hn⟩ := t
  cases n with
  | zero => rfl
  | succ n => exact if_pos h

theorem scr_later (c : Dev nD) (t : Fin cfg0.N) (h : ¬t.val % 4 = 0) :
    scr m c t.val t.isLt = scr m c (t.val - 1) (Nat.lt_of_le_of_lt (Nat.sub_le _ _) t.isLt) := by
  obtain ⟨n, hn⟩ := t
  cases n with
  | zero => exact absurd (Nat.zero_mod _) h
  | succ n => exact if_neg h

/-- The output tile at point `t`. -/
def outAt (c : Dev nD) (t : Fin cfg0.N) : Vec F S1x512x64 .f32 :=
  k0_pay4 (iblk m c 0 t) (iblk m c 2 t) (iblk m c 3 t) (scr m c t.val t.isLt).1 (scr m c t.val t.isLt).2

/-! ## The invariant: the scratch buffers between points -/

/-- The scoped buffers that are no staging buffer are the two scratch buffers. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scK fullShare d) ∗ (∃ d, owns (c : Thread nD τ) scV fullShare d)) := by
  rw [scopedRest0_eq]; simp only [scK, scV, owns_whole]; try rfl

/-- Before point `n`: anything before the first point, then what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scK fullShare (scr m c n hn).1 ∗ owns (c : Thread nD τ) scV fullShare (scr m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scK fullShare (scr m c n hn).1 ∗ owns (c : Thread nD τ) scV fullShare (scr m c n hn).2) := rfl

theorem PhiS_pos (c : Dev nD) (n : ℕ) (h : n ≤ cfg0.N) (hz : n ≠ 0) :
    PhiS m c n h = iprop(owns (c : Thread nD τ) scK fullShare (scr m c (n - 1) (by omega)).1 ∗ owns (c : Thread nD τ) scV fullShare (scr m c (n - 1) (by omega)).2) := by
  cases n with
  | zero => exact absurd rfl hz
  | succ n => rfl

/-! ## The proof data -/

/-- The arrays as the launch finds them; after the body each input's buffer at its block, the output's at the tile;
    the scratch invariant; the array x shared half and half between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point: a first tile projects the keys and values whatever the scratch held; a later tile reads
    what the point before left there, which is what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    show (dats m 0 c).Φ t.succ = PhiS m c (t.val + 1) t.isLt from rfl, PhiS_succ,
    after0, after1, after2, after3, after4, after5, after6]
  unfold outAt
  by_cases h0 : t.val % 4 = 0
  · rw [scr_first m c t h0]
    unfold kvAt; dsimp only
    by_cases hz : t.val = 0
    · rw [PhiS_castSucc m c t, PhiS_zero m c _ _ hz, scoped_eq]
      iintro ⟨⟨HK, HV⟩, Ho, ⟨%d0, H0⟩, ⟨%d1, H1⟩, ⟨%d2, H2⟩, ⟨%d3, H3⟩, ⟨%d4, H4⟩, ⟨%d5, H5⟩, ⟨%d6, H6⟩⟩
      iapply (run_first c Set.univ (grid0.coords t) _ _ _ _ _ _ _ _ _ _ _ _ _ _ _ _ _ _ ((hcond0 t).mpr h0)
        (iblk m c 0 t) (iblk m c 1 t) (iblk m c 2 t) (iblk m c 3 t) (iblk m c 4 t) (iblk m c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HK]; · iexact HK
      isplitl [HV]; · iexact HV
      iintro ⟨H0, H1, H2, H3, H4, H5, H6, HK, HV⟩
      isplitl [HK HV]
      · isplitl [HK]; · iexact HK
        iexact HV
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      iintro ⟨⟨HK, HV⟩, Ho, ⟨%d0, H0⟩, ⟨%d1, H1⟩, ⟨%d2, H2⟩, ⟨%d3, H3⟩, ⟨%d4, H4⟩, ⟨%d5, H5⟩, ⟨%d6, H6⟩⟩
      iapply (run_first c Set.univ (grid0.coords t) _ _ _ _ _ _ _ _ _ _ _ _ _ _ _ _ _ _ ((hcond0 t).mpr h0)
        (iblk m c 0 t) (iblk m c 1 t) (iblk m c 2 t) (iblk m c 3 t) (iblk m c 4 t) (iblk m c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HK]; · iexists _; iexact HK
      isplitl [HV]; · iexists _; iexact HV
      iintro ⟨H0, H1, H2, H3, H4, H5, H6, HK, HV⟩
      isplitl [HK HV]
      · isplitl [HK]; · iexact HK
        iexact HV
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => h0 (by rw [h])
    rw [scr_later m c t h0, PhiS_castSucc m c t, PhiS_pos m c _ _ hz]
    iintro ⟨⟨HK, HV⟩, Ho, ⟨%d0, H0⟩, ⟨%d1, H1⟩, ⟨%d2, H2⟩, ⟨%d3, H3⟩, ⟨%d4, H4⟩, ⟨%d5, H5⟩, ⟨%d6, H6⟩⟩
    iapply (run_later c Set.univ (grid0.coords t) _ _ _ _ _ _ _ _ _ _ _ _ _ _ _ _ _ _ (fun h => h0 ((hcond0 t).mp h))
      (iblk m c 0 t) (iblk m c 1 t) (iblk m c 2 t) (iblk m c 3 t) (iblk m c 4 t) (iblk m c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HK]; · iexact HK
    isplitl [HV]; · iexact HV
    iintro ⟨H0, H1, H2, H3, H4, H5, H6, HK, HV⟩
    isplitl [HK HV]
    · isplitl [HK]; · iexact HK
      iexact HV
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The two ends of the invariant, and the arrays at entry -/

theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) :
    (dats m 0 c).Φ (Fin.last cfg0.N)
      ⊢ (Pipeline.scopedRest (Ix := Unit) (Name := ℕ) (U := UR sig nD τ) (Lvl := ℕ) (Val := Elt F) spec0 c : sProp 𝕄) := by
  have hN : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ hN, scoped_eq]
  iintro ⟨HK, HV⟩
  isplitl [HK]
  · iexists _; iexact HK
  iexists _; iexact HV

/-- The six distinct buffers behind the seven windows make the windows' arrays: x is split between its two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : ∀ Φ : Ref sig .tc → sProp 𝕄, bigSep (Finset.univ.image (Pipeline.arrRef spec0)) Φ
      = iprop(Φ main_arg0 ∗ Φ main_arg3 ∗ Φ main_arg4 ∗ Φ main_v0 ∗ Φ main_v1 ∗ Φ main_v2) := fun Φ =>
    Idealize.SL.BI.bigSep_eq_bigSepL_of_eq [main_arg0, main_arg3, main_arg4, main_v0, main_v1, main_v2] (by decide) (by decide) Φ
  have s0 : (cfg0.win 0).arr.view.set = Finset.univ := (arr_whole0 0).set_eq_univ
  have s2 : (cfg0.win 2).arr.view.set = Finset.univ := (arr_whole0 2).set_eq_univ
  have s3 : (cfg0.win 3).arr.view.set = Finset.univ := (arr_whole0 3).set_eq_univ
  have s4 : (cfg0.win 4).arr.view.set = Finset.univ := (arr_whole0 4).set_eq_univ
  have s5 : (cfg0.win 5).arr.view.set = Finset.univ := (arr_whole0 5).set_eq_univ
  have s6 : (cfg0.win 6).arr.view.set = Finset.univ := (arr_whole0 6).set_eq_univ
  have q0 : (dats m 0 c).share 0 = fullShare.left := by unfold Dat.share; rw [if_neg (by decide)]; dsimp only [dats]
  have q1 : (dats m 0 c).share 1 = fullShare.right := by unfold Dat.share; rw [if_neg (by decide)]; dsimp only [dats]
  have q2 : (dats m 0 c).share 2 = fullShare := by unfold Dat.share; rw [if_neg (by decide)]; dsimp only [dats]
  have q3 : (dats m 0 c).share 3 = fullShare := by unfold Dat.share; rw [if_neg (by decide)]; dsimp only [dats]
  have q4 : (dats m 0 c).share 4 = fullShare := by unfold Dat.share; rw [if_neg (by decide)]; dsimp only [dats]
  have q5 : (dats m 0 c).share 5 = fullShare := by unfold Dat.share; rw [if_neg (by decide)]; dsimp only [dats]
  have q6 : (dats m 0 c).share 6 = fullShare := by unfold Dat.share; rw [if_pos (by decide)]
  have a0 : ∀ w, (dats m 0 c).arrAt w 0 = V m c (Pipeline.arrRef spec0 w) := fun w => A_eq m c w
  unfold Pipeline.arrBufs Dat.arrays
  rw [bigSep_W0, e]
  beta_reduce
  rw [s0, s2, s3, s4, s5, s6, q0, q1, q2, q3, q4, q5, q6, a0, a0, a0, a0, a0, a0, a0]
  iintro ⟨Hx, H3, H4, Hv0, Hv1, Hv2⟩
  ihave Hx := (pointsTo_share (PosShare.mem_left_op_right fullShare)).1 $$ Hx
  icases Hx with ⟨Hxl, Hxr⟩
  isplitl [Hxl]; · iexact Hxl
  isplitl [Hxr]; · iexact Hxr
  isplitl [H3]; · iexact H3
  isplitl [H4]; · iexact H4
  isplitl [Hv0]; · iexact Hv0
  isplitl [Hv1]; · iexact Hv1
  iexact Hv2

/-! ## The run -/

set_option backward.isDefEq.respectTransparency.types false in
/-- Every weakly fair execution of the program terminates, and every final state has each window's array at what the
    proof data compute and every other unscoped buffer as the launch found it. -/
theorem run_main : θ_run defs (onTc (τ := τ) (main (F := F))) (s₀ m ρ) (Pipeline.FramePost cfgs (dats m) 0 (V m)) :=
  SharedFrameTrack.θ_run_frame_shared_track cfgs (dats m) (0 : Fin 1) cellOf_inj winFacts₀0 block_pos0 arr_whole0 stage_whole0
    defs₀ Variants.none m ρ main (hbody := fun c => (body_obligation m c).loose) (howed := fun _ _ => rfl) (V := V m)
    (hmain := hmain m Variants.none) (hsplit := hsplit m) (hin := hin m) (hout := hout m)

/-- In a final state of the run every argument array is as it began: x, the query weight and the query bias are
    input windows' arrays, the other four bypass the launch. -/
theorem kept_of_post (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_arg m c main_arg0 (by decide) (by decide)))),
    ((h c).2 main_arg1 (Pipeline.mem_restRefs_of main_arg1 (by decide) (by decide))).trans (V_arg m c main_arg1 (by decide) (by decide)),
    ((h c).2 main_arg2 (Pipeline.mem_restRefs_of main_arg2 (by decide) (by decide))).trans (V_arg m c main_arg2 (by decide) (by decide)),
    ((h c).1 2).trans (((dats m 0 c).arrAt_in 2 rfl _).trans ((A_eq m c 2).trans (V_arg m c main_arg3 (by decide) (by decide)))),
    ((h c).1 3).trans (((dats m 0 c).arrAt_in 3 rfl _).trans ((A_eq m c 3).trans (V_arg m c main_arg4 (by decide) (by decide)))),
    ((h c).2 main_arg5 (Pipeline.mem_restRefs_of main_arg5 (by decide) (by decide))).trans (V_arg m c main_arg5 (by decide) (by decide)),
    ((h c).2 main_arg6 (Pipeline.mem_restRefs_of main_arg6 (by decide) (by decide))).trans (V_arg m c main_arg6 (by decide) (by decide))⟩

/-- The frame: every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => kept_of_post m r h c) (run_main m ρ)

end Cert.Kernel.Hand

end
-- ==== Proof.FrameRunIdeal.lean ====
/-
  The kernel body of the attention launch, run once per grid point, and the program around the launch.

  The grid is (batch b, query tile qi), 16 × 4 points in row-major order, so point t has qi = t mod 4. At a point
  with qi = 0 the body first projects the whole batch element to keys and values and stores them in its two scratch
  buffers; at every point it then reads the scratch buffers back, forms the query tile's scores against all keys,
  normalizes them, and stores the tile of the result. So there are two runs of the body:
    * the first tile of a batch element: the scratch buffers hold anything on entry and end at the keys and values of
      the key/value block; the output tile is computed from those;
    * a later tile: the scratch buffers hold what an earlier point left, are only read, and the output tile is
      computed from them.
  Every input block is left as found. Before the launch the host concatenates the key and value weights (and
  biases) into the fused operands; no argument array is written.
-/
import proofs.«125491_j31645319037145_2_alg».proof.Proof.Gen.KernelIdeal.Launch
import proofs.«125491_j31645319037145_2_alg».proof.Proof.Gen.KernelIdeal.Skeleton
import proofs.«125491_j31645319037145_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- The buffers of core `c` as the launch finds them: after the two concatenations. -/
abbrev V (c : Dev nD) (b : Ref sig .tc) : Buf (Elt F) ((c : Thread nD τ).loc b) :=
  StableHlo.after (List.flatten [hostOps0]) (fun b => m (c, b)) b

theorem hostOps0_fresh : (hostOps0 : List (HloOp τ sig (Elt F))).Forall fun op => op.fresh = ∅ := by
  simp only [List.Forall]; repeat' constructor

/-- The program is the two concatenations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- The concatenations write only their own results: an argument array reaches the launch as it was. -/
theorem V_arg (c : Dev nD) (b : Ref sig .tc) (h0 : b ≠ main_v0) (h1 : b ≠ main_v1) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.binary_writes, Finset.mem_singleton]
    exact ⟨StableHlo.devRef_ne_of_ne h0, StableHlo.devRef_ne_of_ne h1⟩))

/-! ## The windows' blocks -/

/-- The block of window `w` at point `t`, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds the window's block at every point, fetched there or not, as long as the
    body leaves the block in place (one statement per input window). -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The branch of the body -/

/-- The body's test "this is the first query tile of its batch element", from the grid coordinates. -/
abbrev cond0 (i : grid0.Coords) : Prop := (Scalar.cmpi .ne (Scalar.extui (Scalar.cmpi .eq (BitVec.ofNat 32 (i 1).val) 0#32)) 0#32) = 1#1
/-- It holds at the points that are multiples of 4. -/
theorem hcond0 : ∀ t : Fin cfg0.N, cond0 (grid0.coords t) ↔ t.val % 4 = 0 :=
  (by decide +kernel : ∀ t : Fin grid0.N, cond0 (grid0.coords t) ↔ t.val % 4 = 0)

/-! ## The staging and scratch buffers at a point -/

abbrev ms0 (t : Fin cfg0.N) : Memref sig .tc .vmem S1x512x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512x64 .f32 := win0_6.stage (cfg0.slots t 6)
abbrev hs6 (t : Fin cfg0.N) : (ms6 t).IsWhole := hstage0_6 ((cfg0.slots t 6).cast nbuf0_6)
/-- The key scratch and the value scratch. -/
abbrev scK : Memref sig .tc .vmem S2048x64 .f32 := Memref.whole cc0_scratch0
abbrev scV : Memref sig .tc .vmem S2048x64 .bf16 := Memref.whole cc0_scratch1

/-! ## Whole-buffer loads and stores -/

theorem z1 : (![0] : Fin 1 → ℕ) = fun _ => 0 := by funext a; fin_cases a; rfl
theorem z2 : (![0, 0] : Fin 2 → ℕ) = fun _ => 0 := by funext a; fin_cases a <;> rfl
theorem z3 : (![0, 0, 0] : Fin 3 → ℕ) = fun _ => 0 := by funext a; fin_cases a <;> rfl

/-- One store over the whole buffer leaves its payload there. -/
theorem read_one_store {S : Shape} {e : EltTy} {off : Fin S.rank → ℕ} (hz : off = fun _ => 0) (inb : ∀ a, off a + S.size a ≤ S.size a)
    (v : View sig .tc .vmem S e) (f : v.ty.Contents (Elt F)) (w : S.Idx → Elt F e) :
    v.read (Elt F) (v.writes (Elt F) f [(⟨Rect.unit off S.size inb, w⟩ : View.Piece (Elt F) S e)]) = w := by
  rw [View.read_writes_eq_canon _ _ _ (fun y => ⟨_, List.mem_singleton_self _, View.mem_set_unit_zero hz inb y⟩), View.canon_unit_zero hz]

/-- A load over the whole buffer reads its contents. -/
theorem readAt_whole {S : Shape} {e : EltTy} {off : Fin S.rank → ℕ} (hz : off = fun _ => 0) (inb : ∀ a, off a + S.size a ≤ S.size a)
    (v : View sig .tc .vmem S e) (f : v.ty.Contents (Elt F)) :
    View.readAt (Elt F) v (Rect.unit off S.size inb).toLoadRect f = v.read (Elt F) f := by
  rw [View.readAt_eq_ld, View.ld_unit_zero hz]

/-! ## The two runs of the body -/

set_option maxHeartbeats 4000000 in
/-- The first query tile of a batch element: the scratch buffers end at the keys and values of the key/value
    block, and the output tile is computed from those. -/
theorem run_first (c : Dev nD) (E : Set ℕ) (i : grid0.Coords)
    (arg2 : Memref sig .tc .vmem S1x512x64 .f32) (harg2 : arg2.IsWhole) (arg3 : Memref sig .tc .vmem S1x2048x64 .f32) (harg3 : arg3.IsWhole)
    (arg4 : Memref sig .tc .vmem S64x64 .f32) (harg4 : arg4.IsWhole) (arg5 : Memref sig .tc .vmem S64 .f32) (harg5 : arg5.IsWhole)
    (arg6 : Memref sig .tc .vmem S64x128 .f32) (harg6 : arg6.IsWhole) (arg7 : Memref sig .tc .vmem S128 .f32) (harg7 : arg7.IsWhole)
    (arg8 : Memref sig .tc .vmem S1x512x64 .f32) (harg8 : arg8.IsWhole) (arg9 : Memref sig .tc .vmem S2048x64 .f32) (harg9 : arg9.IsWhole)
    (arg10 : Memref sig .tc .vmem S2048x64 .bf16) (harg10 : arg10.IsWhole) (hc : cond0 i)
    (x0 : Vec F S1x512x64 .f32) (x1 : Vec F S1x2048x64 .f32) (x2 : Vec F S64x64 .f32) (x3 : Vec F S64 .f32) (x4 : Vec F S64x128 .f32) (x5 : Vec F S128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k0_pay4 x0 x2 x3 (k0_pay2 x1 x4 x5) (k0_pay3 x1 x4 x5))
            ∗ owns (c : Thread nD τ) arg9 fullShare (k0_pay2 x1 x4 x5) ∗ owns (c : Thread nD τ) arg10 fullShare (k0_pay3 x1 x4 x5)) -∗ K ⟨⟩))
      ⊢ wp frame (wpE (defs₀ (F := F)) Variants.none c none) E
          (cc0__attn_kernel i arg2 harg2 arg3 harg3 arg4 harg4 arg5 harg5 arg6 harg6 arg7 harg7 arg8 harg8 arg9 harg9 arg10 harg10) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, Hk⟩
  subst hf0 hf1 hf2 hf3 hf4 hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    rw [read_one_store (S := S1x512x64) z3]
    unfold run_first.sl.v13 run_first.sl.v14 run_first.sl.H9_1 run_first.sl.H10_1
    rw [View.readCov_unit_zero (S := S2048x64) _ z2, View.readCov_unit_zero (S := S2048x64) _ z2]
    simp only [readAt_whole (S := S1x512x64) z3, readAt_whole (S := S1x2048x64) z3, readAt_whole (S := S64x64) z2, readAt_whole (S := S64) z1, readAt_whole (S := S64x128) z2, readAt_whole (S := S128) z1, readAt_whole (S := S2048x64) z2]
  isplitl [H9]
  · iexists _; isplitr
    swap; · iexact H9
    ipureintro
    unfold run_first.sl.H9_1
    rw [read_one_store (S := S2048x64) z2]
    simp only [readAt_whole (S := S1x512x64) z3, readAt_whole (S := S1x2048x64) z3, readAt_whole (S := S64x64) z2, readAt_whole (S := S64) z1, readAt_whole (S := S64x128) z2, readAt_whole (S := S128) z1, readAt_whole (S := S2048x64) z2]
  iexists _; isplitr
  swap; · iexact H10
  ipureintro
  unfold run_first.sl.H10_1
  rw [read_one_store (S := S2048x64) z2]
  simp only [readAt_whole (S := S1x512x64) z3, readAt_whole (S := S1x2048x64) z3, readAt_whole (S := S64x64) z2, readAt_whole (S := S64) z1, readAt_whole (S := S64x128) z2, readAt_whole (S := S128) z1, readAt_whole (S := S2048x64) z2]

set_option maxHeartbeats 4000000 in
/-- A later query tile: the scratch buffers, at what an earlier point left in them, are only read; the output tile
    is computed from them. -/
theorem run_later (c : Dev nD) (E : Set ℕ) (i : grid0.Coords)
    (arg2 : Memref sig .tc .vmem S1x512x64 .f32) (harg2 : arg2.IsWhole) (arg3 : Memref sig .tc .vmem S1x2048x64 .f32) (harg3 : arg3.IsWhole)
    (arg4 : Memref sig .tc .vmem S64x64 .f32) (harg4 : arg4.IsWhole) (arg5 : Memref sig .tc .vmem S64 .f32) (harg5 : arg5.IsWhole)
    (arg6 : Memref sig .tc .vmem S64x128 .f32) (harg6 : arg6.IsWhole) (arg7 : Memref sig .tc .vmem S128 .f32) (harg7 : arg7.IsWhole)
    (arg8 : Memref sig .tc .vmem S1x512x64 .f32) (harg8 : arg8.IsWhole) (arg9 : Memref sig .tc .vmem S2048x64 .f32) (harg9 : arg9.IsWhole)
    (arg10 : Memref sig .tc .vmem S2048x64 .bf16) (harg10 : arg10.IsWhole) (hc : ¬cond0 i)
    (x0 : Vec F S1x512x64 .f32) (x1 : Vec F S1x2048x64 .f32) (x2 : Vec F S64x64 .f32) (x3 : Vec F S64 .f32) (x4 : Vec F S64x128 .f32) (x5 : Vec F S128 .f32)
    (ks : Vec F S2048x64 .f32) (vs : Vec F S2048x64 .bf16)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare ks ∗ owns (c : Thread nD τ) arg10 fullShare vs
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (k0_pay4 x0 x2 x3 ks vs)
            ∗ owns (c : Thread nD τ) arg9 fullShare ks ∗ owns (c : Thread nD τ) arg10 fullShare vs) -∗ K ⟨⟩))
      ⊢ wp frame (wpE (defs₀ (F := F)) Variants.none c none) E
          (cc0__attn_kernel i arg2 harg2 arg3 harg3 arg4 harg4 arg5 harg5 arg6 harg6 arg7 harg7 arg8 harg8 arg9 harg9 arg10 harg10) K := by
  simp only [cc0__attn_kernel_eq_skeleton]; unfold cc0__attn_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, ⟨%f10, %hf10, H10⟩, Hk⟩
  subst hf0 hf1 hf2 hf3 hf4 hf5 hf9 hf10
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    rw [read_one_store (S := S1x512x64) z3]
    simp only [readAt_whole (S := S1x512x64) z3, readAt_whole (S := S1x2048x64) z3, readAt_whole (S := S64x64) z2, readAt_whole (S := S64) z1, readAt_whole (S := S64x128) z2, readAt_whole (S := S128) z1, readAt_whole (S := S2048x64) z2]
  isplitl [H9]
  · iexists f9; isplitr; · ipureintro; rfl
    iexact H9
  iexists f10; isplitr; · ipureintro; rfl
  iexact H10

end Cert.KernelIdeal.Hand

end
-- ==== Proof.FrameIdeal.lean ====
/-
  The attention launch point by point: what each buffer holds after every grid point, and the run of the program.

  Points run in row-major order over (batch b, query tile qi), t = 4·b + qi. The two scratch buffers hold, after
  point t, the keys and values projected at the last point t' ≤ t with qi = 0 (the first tile of the same batch
  element): they are written there and only read at the three later tiles. The output tile at point t is the
  body's result on the query block, the query weight and bias, and those scratch contents. The input array x is
  read through two windows (the query tile and the whole batch element): each holds half of the share of x.
-/
import proofs.«125491_j31645319037145_2_alg».proof.Proof.FrameRunIdeal
import proofs.«125491_j31645319037145_2_alg».proof.Proof.LibSharedFrameTrack

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers and the output tile hold -/

/-- The keys and values the body projects at point `t` from the key/value block, the fused weight and the fused bias. -/
def kvAt (c : Dev nD) (t : Fin cfg0.N) : Vec F S2048x64 .f32 × Vec F S2048x64 .bf16 :=
  (k0_pay2 (iblk m c 1 t) (iblk m c 4 t) (iblk m c 5 t), k0_pay3 (iblk m c 1 t) (iblk m c 4 t) (iblk m c 5 t))

/-- The scratch buffers after point `n`: projected afresh at a first tile, kept at a later one. -/
def scr (c : Dev nD) : (n : ℕ) → n < cfg0.N → Vec F S2048x64 .f32 × Vec F S2048x64 .bf16
  | 0, hn => kvAt m c ⟨0, hn⟩
  | n + 1, hn => if (n + 1) % 4 = 0 then kvAt m c ⟨n + 1, hn⟩ else scr c n (Nat.lt_of_succ_lt hn)

theorem scr_first (c : Dev nD) (t : Fin cfg0.N) (h : t.val % 4 = 0) : scr m c t.val t.isLt = kvAt m c t := by
  obtain ⟨n, hn⟩ := t
  cases n with
  | zero => rfl
  | succ n => exact if_pos h

theorem scr_later (c : Dev nD) (t : Fin cfg0.N) (h : ¬t.val % 4 = 0) :
    scr m c t.val t.isLt = scr m c (t.val - 1) (Nat.lt_of_le_of_lt (Nat.sub_le _ _) t.isLt) := by
  obtain ⟨n, hn⟩ := t
  cases n with
  | zero => exact absurd (Nat.zero_mod _) h
  | succ n => exact if_neg h

/-- The output tile at point `t`. -/
def outAt (c : Dev nD) (t : Fin cfg0.N) : Vec F S1x512x64 .f32 :=
  k0_pay4 (iblk m c 0 t) (iblk m c 2 t) (iblk m c 3 t) (scr m c t.val t.isLt).1 (scr m c t.val t.isLt).2

/-! ## The invariant: the scratch buffers between points -/

/-- The scoped buffers that are no staging buffer are the two scratch buffers. -/
theorem scoped_eq (c : Dev nD) :
    (Pipeline.scopedRest (Ix := Unit) (Name := ℕ) (U := UR sig nD τ) (Lvl := ℕ) (Val := Elt F) spec0 c : sProp 𝕄)
      = iprop((∃ d, owns (c : Thread nD τ) scK fullShare d) ∗ (∃ d, owns (c : Thread nD τ) scV fullShare d)) := by
  rw [scopedRest0_eq]; simp only [scK, scV, owns_whole]; try rfl

/-- Before point `n`: anything before the first point, then what the point before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scK fullShare (scr m c n hn).1 ∗ owns (c : Thread nD τ) scV fullShare (scr m c n hn).2)

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) :
    PhiS m c (n + 1) hn = iprop(owns (c : Thread nD τ) scK fullShare (scr m c n hn).1 ∗ owns (c : Thread nD τ) scV fullShare (scr m c n hn).2) := rfl

theorem PhiS_pos (c : Dev nD) (n : ℕ) (h : n ≤ cfg0.N) (hz : n ≠ 0) :
    PhiS m c n h = iprop(owns (c : Thread nD τ) scK fullShare (scr m c (n - 1) (by omega)).1 ∗ owns (c : Thread nD τ) scV fullShare (scr m c (n - 1) (by omega)).2) := by
  cases n with
  | zero => exact absurd rfl hz
  | succ n => rfl

/-! ## The proof data -/

/-- The arrays as the launch finds them; after the body each input's buffer at its block, the output's at the tile;
    the scratch invariant; the array x shared half and half between its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

set_option maxHeartbeats 4000000 in
/-- The body at any point: a first tile projects the keys and values whatever the scratch held; a later tile reads
    what the point before left there, which is what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl,
    show (dats m 0 c).Φ t.succ = PhiS m c (t.val + 1) t.isLt from rfl, PhiS_succ,
    after0, after1, after2, after3, after4, after5, after6]
  unfold outAt
  by_cases h0 : t.val % 4 = 0
  · rw [scr_first m c t h0]
    unfold kvAt; dsimp only
    by_cases hz : t.val = 0
    · rw [PhiS_castSucc m c t, PhiS_zero m c _ _ hz, scoped_eq]
      iintro ⟨⟨HK, HV⟩, Ho, ⟨%d0, H0⟩, ⟨%d1, H1⟩, ⟨%d2, H2⟩, ⟨%d3, H3⟩, ⟨%d4, H4⟩, ⟨%d5, H5⟩, ⟨%d6, H6⟩⟩
      iapply (run_first c Set.univ (grid0.coords t) _ _ _ _ _ _ _ _ _ _ _ _ _ _ _ _ _ _ ((hcond0 t).mpr h0)
        (iblk m c 0 t) (iblk m c 1 t) (iblk m c 2 t) (iblk m c 3 t) (iblk m c 4 t) (iblk m c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HK]; · iexact HK
      isplitl [HV]; · iexact HV
      iintro ⟨H0, H1, H2, H3, H4, H5, H6, HK, HV⟩
      isplitl [HK HV]
      · isplitl [HK]; · iexact HK
        iexact HV
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      iintro ⟨⟨HK, HV⟩, Ho, ⟨%d0, H0⟩, ⟨%d1, H1⟩, ⟨%d2, H2⟩, ⟨%d3, H3⟩, ⟨%d4, H4⟩, ⟨%d5, H5⟩, ⟨%d6, H6⟩⟩
      iapply (run_first c Set.univ (grid0.coords t) _ _ _ _ _ _ _ _ _ _ _ _ _ _ _ _ _ _ ((hcond0 t).mpr h0)
        (iblk m c 0 t) (iblk m c 1 t) (iblk m c 2 t) (iblk m c 3 t) (iblk m c 4 t) (iblk m c 5 t) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HK]; · iexists _; iexact HK
      isplitl [HV]; · iexists _; iexact HV
      iintro ⟨H0, H1, H2, H3, H4, H5, H6, HK, HV⟩
      isplitl [HK HV]
      · isplitl [HK]; · iexact HK
        iexact HV
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hz : t.val ≠ 0 := fun h => h0 (by rw [h])
    rw [scr_later m c t h0, PhiS_castSucc m c t, PhiS_pos m c _ _ hz]
    iintro ⟨⟨HK, HV⟩, Ho, ⟨%d0, H0⟩, ⟨%d1, H1⟩, ⟨%d2, H2⟩, ⟨%d3, H3⟩, ⟨%d4, H4⟩, ⟨%d5, H5⟩, ⟨%d6, H6⟩⟩
    iapply (run_later c Set.univ (grid0.coords t) _ _ _ _ _ _ _ _ _ _ _ _ _ _ _ _ _ _ (fun h => h0 ((hcond0 t).mp h))
      (iblk m c 0 t) (iblk m c 1 t) (iblk m c 2 t) (iblk m c 3 t) (iblk m c 4 t) (iblk m c 5 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HK]; · iexact HK
    isplitl [HV]; · iexact HV
    iintro ⟨H0, H1, H2, H3, H4, H5, H6, HK, HV⟩
    isplitl [HK HV]
    · isplitl [HK]; · iexact HK
      iexact HV
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The two ends of the invariant, and the arrays at entry -/

theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) :
    (dats m 0 c).Φ (Fin.last cfg0.N)
      ⊢ (Pipeline.scopedRest (Ix := Unit) (Name := ℕ) (U := UR sig nD τ) (Lvl := ℕ) (Val := Elt F) spec0 c : sProp 𝕄) := by
  have hN : (Fin.last cfg0.N).val ≠ 0 := by rw [Fin.val_last]; have : cfg0.N = 64 := N_0; omega
  rw [show (dats m 0 c).Φ (Fin.last cfg0.N) = PhiS m c (Fin.last cfg0.N).val (Nat.le_of_lt_succ (Fin.last cfg0.N).isLt) from rfl,
    PhiS_pos m c _ _ hN, scoped_eq]
  iintro ⟨HK, HV⟩
  isplitl [HK]
  · iexists _; iexact HK
  iexists _; iexact HV

/-- The six distinct buffers behind the seven windows make the windows' arrays: x is split between its two windows. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : ∀ Φ : Ref sig .tc → sProp 𝕄, bigSep (Finset.univ.image (Pipeline.arrRef spec0)) Φ
      = iprop(Φ main_arg0 ∗ Φ main_arg3 ∗ Φ main_arg4 ∗ Φ main_v0 ∗ Φ main_v1 ∗ Φ main_v2) := fun Φ =>
    Idealize.SL.BI.bigSep_eq_bigSepL_of_eq [main_arg0, main_arg3, main_arg4, main_v0, main_v1, main_v2] (by decide) (by decide) Φ
  have s0 : (cfg0.win 0).arr.view.set = Finset.univ := (arr_whole0 0).set_eq_univ
  have s2 : (cfg0.win 2).arr.view.set = Finset.univ := (arr_whole0 2).set_eq_univ
  have s3 : (cfg0.win 3).arr.view.set = Finset.univ := (arr_whole0 3).set_eq_univ
  have s4 : (cfg0.win 4).arr.view.set = Finset.univ := (arr_whole0 4).set_eq_univ
  have s5 : (cfg0.win 5).arr.view.set = Finset.univ := (arr_whole0 5).set_eq_univ
  have s6 : (cfg0.win 6).arr.view.set = Finset.univ := (arr_whole0 6).set_eq_univ
  have q0 : (dats m 0 c).share 0 = fullShare.left := by unfold Dat.share; rw [if_neg (by decide)]; dsimp only [dats]
  have q1 : (dats m 0 c).share 1 = fullShare.right := by unfold Dat.share; rw [if_neg (by decide)]; dsimp only [dats]
  have q2 : (dats m 0 c).share 2 = fullShare := by unfold Dat.share; rw [if_neg (by decide)]; dsimp only [dats]
  have q3 : (dats m 0 c).share 3 = fullShare := by unfold Dat.share; rw [if_neg (by decide)]; dsimp only [dats]
  have q4 : (dats m 0 c).share 4 = fullShare := by unfold Dat.share; rw [if_neg (by decide)]; dsimp only [dats]
  have q5 : (dats m 0 c).share 5 = fullShare := by unfold Dat.share; rw [if_neg (by decide)]; dsimp only [dats]
  have q6 : (dats m 0 c).share 6 = fullShare := by unfold Dat.share; rw [if_pos (by decide)]
  have a0 : ∀ w, (dats m 0 c).arrAt w 0 = V m c (Pipeline.arrRef spec0 w) := fun w => A_eq m c w
  unfold Pipeline.arrBufs Dat.arrays
  rw [bigSep_W0, e]
  beta_reduce
  rw [s0, s2, s3, s4, s5, s6, q0, q1, q2, q3, q4, q5, q6, a0, a0, a0, a0, a0, a0, a0]
  iintro ⟨Hx, H3, H4, Hv0, Hv1, Hv2⟩
  ihave Hx := (pointsTo_share (PosShare.mem_left_op_right fullShare)).1 $$ Hx
  icases Hx with ⟨Hxl, Hxr⟩
  isplitl [Hxl]; · iexact Hxl
  isplitl [Hxr]; · iexact Hxr
  isplitl [H3]; · iexact H3
  isplitl [H4]; · iexact H4
  isplitl [Hv0]; · iexact Hv0
  isplitl [Hv1]; · iexact Hv1
  iexact Hv2

/-! ## The run -/

set_option backward.isDefEq.respectTransparency.types false in
/-- Every weakly fair execution of the program terminates, and every final state has each window's array at what the
    proof data compute and every other unscoped buffer as the launch found it. -/
theorem run_main : θ_run defs (onTc (τ := τ) (main (F := F))) (s₀ m ρ) (Pipeline.FramePost cfgs (dats m) 0 (V m)) :=
  SharedFrameTrack.θ_run_frame_shared_track cfgs (dats m) (0 : Fin 1) cellOf_inj winFacts₀0 block_pos0 arr_whole0 stage_whole0
    defs₀ Variants.none m ρ main (hbody := fun c => (body_obligation m c).loose) (howed := fun _ _ => rfl) (V := V m)
    (hmain := hmain m Variants.none) (hsplit := hsplit m) (hin := hin m) (hout := hout m)

/-- In a final state of the run every argument array is as it began: x, the query weight and the query bias are
    input windows' arrays, the other four bypass the launch. -/
theorem kept_of_post (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m 0 c).arrAt_in 0 rfl _).trans ((A_eq m c 0).trans (V_arg m c main_arg0 (by decide) (by decide)))),
    ((h c).2 main_arg1 (Pipeline.mem_restRefs_of main_arg1 (by decide) (by decide))).trans (V_arg m c main_arg1 (by decide) (by decide)),
    ((h c).2 main_arg2 (Pipeline.mem_restRefs_of main_arg2 (by decide) (by decide))).trans (V_arg m c main_arg2 (by decide) (by decide)),
    ((h c).1 2).trans (((dats m 0 c).arrAt_in 2 rfl _).trans ((A_eq m c 2).trans (V_arg m c main_arg3 (by decide) (by decide)))),
    ((h c).1 3).trans (((dats m 0 c).arrAt_in 3 rfl _).trans ((A_eq m c 3).trans (V_arg m c main_arg4 (by decide) (by decide)))),
    ((h c).2 main_arg5 (Pipeline.mem_restRefs_of main_arg5 (by decide) (by decide))).trans (V_arg m c main_arg5 (by decide) (by decide)),
    ((h c).2 main_arg6 (Pipeline.mem_restRefs_of main_arg6 (by decide) (by decide))).trans (V_arg m c main_arg6 (by decide) (by decide))⟩

/-- The frame: every argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => kept_of_post m r h c) (run_main m ρ)

end Cert.KernelIdeal.Hand

end
-- ==== Proof.Spec.lean ====
/-
  Single-head attention over the extended reals, as one function of the query, key and value rows.

  For query rows q(t, ·), key rows k(s, ·) and value rows v(s, ·) (64 features each, 2048 key positions):
    score(t, s)  = (Σ_d q(t, d) · k(s, d)) · 8
    top(t)       = the maximum over s of score(t, s), folded from -∞
    weight(t, s) = exp(score(t, s) − top(t))
    mass(t)      = Σ_s weight(t, s)
  The result is written in two arrangements:
    normalizeLast  (t, d) = (Σ_s weight(t, s) · v(s, d)) / mass(t)      -- divide the weighted sum once
    normalizeFirst (t, d) = Σ_s (weight(t, s) / mass(t)) · v(s, d)      -- divide each weight, then sum
  On real (finite) rows the two agree: mass(t) is a positive real, and a real quotient distributes over a finite sum.
  Also here: the affine projection x·W + b of a token, which makes q, k and v out of the input rows.
-/
import Idealize.ShloMosaic.PureOps.Ideal
import Idealize.ShloMosaic.Lib.ValueIdx

noncomputable section

namespace Cert.Attn

open Idealize.ShloMosaic Idealize.ShloMosaic.ValueIdx

/-- The scale √64 = 8, as the f32 word both programs carry. -/
def eight : EReal := FloatOps.ofBits (F := Ideal) .f32 0x41000000#32
/-- The word of -∞, from which both programs fold their maxima. -/
def negInf : EReal := FloatOps.ofBits (F := Ideal) .f32 0xFF800000#32

variable {T : Type}

/-- The scaled inner product of query row `t` and key row `s`. -/
def score (q : T → Fin 64 → EReal) (k : Fin 2048 → Fin 64 → EReal) (t : T) (s : Fin 2048) : EReal :=
  (∑ d : Fin 64, q t d * k s d) * eight

/-- The largest score of query row `t`, folded from -∞. -/
def top (q : T → Fin 64 → EReal) (k : Fin 2048 → Fin 64 → EReal) (t : T) : EReal :=
  (Finset.univ : Finset (Fin 2048)).fold max negInf (fun s => score q k t s)

/-- The unnormalized softmax weight of key position `s` for query row `t`. -/
def weight (q : T → Fin 64 → EReal) (k : Fin 2048 → Fin 64 → EReal) (t : T) (s : Fin 2048) : EReal :=
  Ideal.exp (score q k t s - top q k t)

/-- The total weight of query row `t`. -/
def mass (q : T → Fin 64 → EReal) (k : Fin 2048 → Fin 64 → EReal) (t : T) : EReal :=
  ∑ s : Fin 2048, weight q k t s

/-- Attention with the weighted sum of values divided once by the total weight. -/
def normalizeLast (q : T → Fin 64 → EReal) (k v : Fin 2048 → Fin 64 → EReal) (t : T) (d : Fin 64) : EReal :=
  Ideal.div (∑ s : Fin 2048, weight q k t s * v s d) (mass q k t)

/-- Attention with each weight divided by the total weight before the values are summed. -/
def normalizeFirst (q : T → Fin 64 → EReal) (k v : Fin 2048 → Fin 64 → EReal) (t : T) (d : Fin 64) : EReal :=
  ∑ s : Fin 2048, Ideal.div (weight q k t s) (mass q k t) * v s d

/-- The affine projection of token `(b, t)` of a [16, 2048, 64] array onto feature `d`: Σ_c x(b, t, c) · W(c, d) + bias(d). -/
def proj (x : (⟨3, ![16, 2048, 64]⟩ : Shape).Idx → EReal) (W : (⟨2, ![64, 64]⟩ : Shape).Idx → EReal)
    (bias : (⟨1, ![64]⟩ : Shape).Idx → EReal) (b : Fin 16) (t : Fin 2048) (d : Fin 64) : EReal :=
  (∑ c : Fin 64, x (ix3 b t c) * W (ix2 c d)) + bias (ix1 d)

/-- The whole result array in the divide-once arrangement: attention inside each batch element, over projected rows. -/
def wholeLast (x : (⟨3, ![16, 2048, 64]⟩ : Shape).Idx → EReal)
    (Wk : (⟨2, ![64, 64]⟩ : Shape).Idx → EReal) (bk : (⟨1, ![64]⟩ : Shape).Idx → EReal)
    (Wq : (⟨2, ![64, 64]⟩ : Shape).Idx → EReal) (bq : (⟨1, ![64]⟩ : Shape).Idx → EReal)
    (Wv : (⟨2, ![64, 64]⟩ : Shape).Idx → EReal) (bv : (⟨1, ![64]⟩ : Shape).Idx → EReal) :
    (⟨3, ![16, 2048, 64]⟩ : Shape).Idx → EReal :=
  fun i => normalizeLast (proj x Wq bq (i 0)) (proj x Wk bk (i 0)) (proj x Wv bv (i 0)) (i 1) (i 2)

/-- The whole result array in the divide-each-weight arrangement. -/
def wholeFirst (x : (⟨3, ![16, 2048, 64]⟩ : Shape).Idx → EReal)
    (Wk : (⟨2, ![64, 64]⟩ : Shape).Idx → EReal) (bk : (⟨1, ![64]⟩ : Shape).Idx → EReal)
    (Wq : (⟨2, ![64, 64]⟩ : Shape).Idx → EReal) (bq : (⟨1, ![64]⟩ : Shape).Idx → EReal)
    (Wv : (⟨2, ![64, 64]⟩ : Shape).Idx → EReal) (bv : (⟨1, ![64]⟩ : Shape).Idx → EReal) :
    (⟨3, ![16, 2048, 64]⟩ : Shape).Idx → EReal :=
  fun i => normalizeFirst (proj x Wq bq (i 0)) (proj x Wk bk (i 0)) (proj x Wv bv (i 0)) (i 1) (i 2)

end Cert.Attn

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.LibColumn.lean ====
/-
  Column arrays.
  * A vector of length a made an [a, 1] matrix by a shape cast: entry (i, 0) is entry i of the vector.
  * An [a, 1] column repeated along b columns by a broadcast: entry (p, c) is the column's entry (p, 0).
-/
import Idealize.ShloMosaic.Lib.Pipeline.Value
import Idealize.ShloMosaic.Lib.ValueIdx

noncomputable section

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.LibRowReduce.lean ====
/-
  Reductions along the rows of a matrix, at the ideal values.
  For an [a, b] matrix reduced along its second axis into a vector of length a:
  * the index of the matrix that lies over position r of the vector with k inserted on the reduced axis is (r, k);
  * a sum reduction reads, at r, the sum over k < b of the entries (r, k);
  * a maximum reduction reads, at r, the fold of max over k < b of the entries (r, k), started from the accumulator's value.
-/
import Idealize.ShloMosaic.PureOps.Ideal.Laws
import Idealize.ShloMosaic.Lib.ValueIdx

noncomputable section

namespace Cert.LibRowReduce

open Idealize.ShloMosaic Idealize.ShloMosaic.ValueIdx

/-- Over position `r` of the reduced vector, with `k` on the reduced axis, lies the matrix index `(r, k)`. -/
theorem lift_row {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

/-- The sum along a row: at `r`, the sum over the row's entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- The maximum along a row: at `r`, the fold of `max` over the row's entries from the accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (FloatOps.ofBits φ acc) (fun k => src (ix2 r k)) :=
  (Ideal.multiReduction_maximumf_single src acc h hφ hacc (ix1 r)).trans
    (congrArg (Finset.fold max (FloatOps.ofBits φ acc) · (Finset.univ : Finset (Fin b)))
      (funext fun k => congrArg src (lift_row h r k)))

end Cert.LibRowReduce

end
-- ==== Proof.KernelPayload.lean ====
/-
  The output block of the attention body, read at an index, on the extended reals.

  From a block of 512 input rows the body makes the query rows q = x·Wq + bq, and from the stored key rows k and value
  rows v (2048 of each) it computes, for query row r and feature d,
    score(r, s)  = (Σ_c q(r, c) · k(s, c)) · 8,
    top(r)       = the maximum over s of score(r, s), folded from -∞,
    weight(r, s) = exp(score(r, s) − top(r)),
    out(r, d)    = (Σ_s weight(r, s) · v(s, d)) / (Σ_s weight(r, s)),
  which is the divide-once arrangement of single-head attention. The body is cut into four stages, each a function of
  the arrays before it — the query projection, the scaled scores, the weights, the normalized weighted sum — and each
  stage is read at an index by itself; the body is their composition by unfolding. A narrowing of the float format
  is the identity on extended reals, so it leaves no trace here.
-/
import proofs.«125491_j31645319037145_2_alg».proof.Proof.Gen.KernelIdeal.Skeleton
import proofs.«125491_j31645319037145_2_alg».proof.Proof.Spec
import proofs.«125491_j31645319037145_2_alg».proof.Proof.LibPlainDot
import proofs.«125491_j31645319037145_2_alg».proof.Proof.LibColumn
import proofs.«125491_j31645319037145_2_alg».proof.Proof.LibRowReduce
import Idealize.ShloMosaic.Lib.ValueLayout

noncomputable section

namespace Cert.Attn.Payload

open Idealize.ShloMosaic Idealize.ShloMosaic.ValueIdx Cert.KernelIdeal Cert.KernelIdeal.Gen

/-! ## The four stages -/

/-- The query projection x·Wq + bq of a block of 512 rows. -/
def queryRows (xq : FVec Ideal S1x512x64 .f32) (wq : FVec Ideal S64x64 .f32) (bq : FVec Ideal S64 .f32) : FVec Ideal S512x64 .f32 :=
  addf
    (matmul dot_S512x64_S64x64_S512x64_1_0_0_1_n_n none
      (truncf .bf16 (shapeCast S512x64 xq shapeCasts_S1x512x64_S512x64) bitsLt_bf16_f32)
      (truncf .bf16 wq bitsLt_bf16_f32) (constant (F := Ideal) S512x64 .f32 0x00000000#32))
    (broadcastTo S512x64 (shapeCast S1x64 bq shapeCasts_S64_S1x64) broadcasts_S1x64_S512x64)

/-- The scores q·kᵀ, times 8. -/
def scores (q : FVec Ideal S512x64 .f32) (ks : FVec Ideal S2048x64 .f32) : FVec Ideal S512x2048 .f32 :=
  mulf
    (matmul dot_S512x64_S64x2048_S512x2048_1_0_0_1_n_n (some .fp32) q
      (transpose S64x2048 [1, 0] ks transposes_S2048x64_p1_0_S64x2048) (constant (F := Ideal) S512x2048 .f32 0x00000000#32))
    (broadcast S512x2048 (Scalar.ofBits (F := Ideal) .f32 0x41000000#32))

/-- The weights exp(score − the row's maximum). -/
def weights (sc : FVec Ideal S512x2048 .f32) : FVec Ideal S512x2048 .f32 :=
  exp (subf sc
    (broadcastTo S512x2048
      (shapeCast S512x1
        (multiReduction (F := Ideal) .maximumf [1] S512 sc 0xFF800000#32 reduces_S512x2048_S512 (.inl rfl) rfl)
        shapeCasts_S512_S512x1)
      broadcasts_S512x1_S512x2048))

/-- The weighted sum of the value rows, divided by the row's total weight, as a [1, 512, 64] block. -/
def normalized (w : FVec Ideal S512x2048 .f32) (vs : FVec Ideal S2048x64 .bf16) : FVec Ideal S1x512x64 .f32 :=
  shapeCast S1x512x64
    (divf
      (matmul dot_S512x2048_S2048x64_S512x64_1_0_0_1_n_n none (truncf .bf16 w bitsLt_bf16_f32) vs
        (constant (F := Ideal) S512x64 .f32 0x00000000#32))
      (broadcastTo S512x64
        (shapeCast S512x1
          (multiReduction (F := Ideal) .add [1] S512 w 0x00000000#32 reduces_S512x2048_S512 (.inl rfl) rfl)
          shapeCasts_S512_S512x1)
        broadcasts_S512x1_S512x64))
    shapeCasts_S512x64_S1x512x64

/-- The body's output block is the composition of the four stages. -/
theorem pay4_eq (xq : Vec Ideal S1x512x64 .f32) (wq : Vec Ideal S64x64 .f32) (bq : Vec Ideal S64 .f32)
    (ks : Vec Ideal S2048x64 .f32) (vs : Vec Ideal S2048x64 .bf16) :
    k0_pay4 (F := Ideal) xq wq bq ks vs = normalized (weights (scores (queryRows xq wq bq) ks)) vs := rfl

/-! ## Each stage at an index -/

/-- The three products of the body are plain matrix products. -/
theorem dotQ_eq : dot_S512x64_S64x64_S512x64_1_0_0_1_n_n = DotDims.plain 512 64 64 := rfl
theorem dotS_eq : dot_S512x64_S64x2048_S512x2048_1_0_0_1_n_n = DotDims.plain 512 64 2048 := rfl
theorem dotV_eq : dot_S512x2048_S2048x64_S512x64_1_0_0_1_n_n = DotDims.plain 512 2048 64 := rfl

/-- The query projection at row `r` and feature `d`. -/
theorem queryRows_apply (xq : FVec Ideal S1x512x64 .f32) (wq : FVec Ideal S64x64 .f32) (bq : FVec Ideal S64 .f32)
    (r : Fin 512) (d : Fin 64) :
    queryRows xq wq bq (ix2 r d) = (∑ c : Fin 64, xq (ix3 (0 : Fin 1) r c) * wq (ix2 c d)) + bq (ix1 d) := by
  unfold queryRows
  rw [addf_apply]
  refine congr (congrArg HAdd.hAdd ?_) ?_
  · refine (Cert.LibPlainDot.matmul_plain 512 64 64 none _ _ (ix2 r d)).trans ?_
    refine Finset.sum_congr rfl fun k _ => ?_
    refine congr (congrArg HMul.hMul ?_) rfl
    exact shapeCast_1ab_ab_apply xq _ r k
  · rw [broadcastTo_1b_ab_apply, shapeCast_a_1a_apply]

/-- The score of query row `r` against key row `s`: the inner product of the two rows, times 8. -/
theorem scores_apply (q : FVec Ideal S512x64 .f32) (ks : FVec Ideal S2048x64 .f32) (r : Fin 512) (s : Fin 2048) :
    scores q ks (ix2 r s) = (∑ c : Fin 64, q (ix2 r c) * ks (ix2 s c)) * Cert.Attn.eight := by
  unfold scores
  rw [mulf_apply, broadcast_apply]
  refine congr (congrArg HMul.hMul ?_) rfl
  refine (Cert.LibPlainDot.matmul_plain 512 64 2048 (some .fp32) _ _ (ix2 r s)).trans ?_
  refine Finset.sum_congr rfl fun k _ => ?_
  refine congr (congrArg HMul.hMul rfl) ?_
  exact transpose_ix2_apply ks _ k s

/-- The weight of key position `s` for query row `r`: exp of the score less the row's maximum folded from -∞. -/
theorem weights_apply (sc : FVec Ideal S512x2048 .f32) (r : Fin 512) (s : Fin 2048) :
    weights sc (ix2 r s)
      = Ideal.exp (sc (ix2 r s) - (Finset.univ : Finset (Fin 2048)).fold max Cert.Attn.negInf (fun k => sc (ix2 r k))) := by
  unfold weights
  show Ideal.exp (subf sc _ (ix2 r s)) = _
  rw [subf_apply, Cert.LibColumn.broadcastTo_a1_ab_apply, Cert.LibColumn.shapeCast_a_a1_apply]
  refine congrArg (fun m => Ideal.exp (sc (ix2 r s) - m)) ?_
  exact Cert.LibRowReduce.rowMax_apply sc _ _ _ _ r

/-- The output at row `r` and feature `d`: the weighted sum of the value rows over the total weight. -/
theorem normalized_apply (w : FVec Ideal S512x2048 .f32) (vs : FVec Ideal S2048x64 .bf16) (r : Fin 512) (d : Fin 64) :
    normalized w vs (ix3 (0 : Fin 1) r d)
      = Ideal.div (∑ s : Fin 2048, w (ix2 r s) * vs (ix2 s d)) (∑ s : Fin 2048, w (ix2 r s)) := by
  unfold normalized
  rw [shapeCast_ab_1ab_apply, divf_apply]
  refine congr (congrArg Ideal.div ?_) ?_
  · exact Cert.LibPlainDot.matmul_plain 512 2048 64 none _ _ (ix2 r d)
  · rw [Cert.LibColumn.broadcastTo_a1_ab_apply, Cert.LibColumn.shapeCast_a_a1_apply]
    exact Cert.LibRowReduce.rowSum_apply w _ _ _ _ r

/-! ## The body's output block -/

/-- The scores over the projected query rows are the scaled inner products of single-head attention. -/
theorem scores_eq_score (xq : FVec Ideal S1x512x64 .f32) (wq : FVec Ideal S64x64 .f32) (bq : FVec Ideal S64 .f32)
    (ks : FVec Ideal S2048x64 .f32) (r : Fin 512) (s : Fin 2048) :
    scores (queryRows xq wq bq) ks (ix2 r s)
      = Cert.Attn.score (fun (r' : Fin 512) d' => (∑ c : Fin 64, xq (ix3 (0 : Fin 1) r' c) * wq (ix2 c d')) + bq (ix1 d'))
          (fun s d' => ks (ix2 s d')) r s := by
  rw [scores_apply]
  unfold Cert.Attn.score
  refine congrArg (· * Cert.Attn.eight) (Finset.sum_congr rfl fun c _ => ?_)
  rw [queryRows_apply]

/-- The weights over those scores are the unnormalized softmax weights of single-head attention. -/
theorem weights_eq_weight (xq : FVec Ideal S1x512x64 .f32) (wq : FVec Ideal S64x64 .f32) (bq : FVec Ideal S64 .f32)
    (ks : FVec Ideal S2048x64 .f32) (r : Fin 512) (s : Fin 2048) :
    weights (scores (queryRows xq wq bq) ks) (ix2 r s)
      = Cert.Attn.weight (fun (r' : Fin 512) d' => (∑ c : Fin 64, xq (ix3 (0 : Fin 1) r' c) * wq (ix2 c d')) + bq (ix1 d'))
          (fun s d' => ks (ix2 s d')) r s := by
  rw [weights_apply]
  unfold Cert.Attn.weight Cert.Attn.top
  rw [scores_eq_score, funext (scores_eq_score xq wq bq ks r)]

/-- The output block at row `r` and feature `d` is attention, divided once, of the projected query rows against the
    stored key and value rows. -/
theorem out_apply (xq : Vec Ideal S1x512x64 .f32) (wq : Vec Ideal S64x64 .f32) (bq : Vec Ideal S64 .f32)
    (ks : Vec Ideal S2048x64 .f32) (vs : Vec Ideal S2048x64 .bf16) (r : Fin 512) (d : Fin 64) :
    k0_pay4 (F := Ideal) xq wq bq ks vs (ix3 (0 : Fin 1) r d)
      = Cert.Attn.normalizeLast
          (fun (r' : Fin 512) d' => (∑ c : Fin 64, xq (ix3 (0 : Fin 1) r' c) * wq (ix2 c d')) + bq (ix1 d'))
          (fun s d' => ks (ix2 s d')) (fun s d' => vs (ix2 s d')) r d := by
  rw [pay4_eq, normalized_apply]
  unfold Cert.Attn.normalizeLast Cert.Attn.mass
  refine congr (congrArg Ideal.div (Finset.sum_congr rfl fun s _ => ?_))
    (Finset.sum_congr rfl fun s _ => weights_eq_weight xq wq bq ks r s)
  exact congrArg (· * vs (ix2 s d)) (weights_eq_weight xq wq bq ks r s)

end Cert.Attn.Payload

end
-- ==== Proof.KernelPayloadKV.lean ====
/-
  The fused key/value projection of one batch element, read at an index, on the extended reals.

  The projection multiplies the 2048 input rows (64 features each) by one [64, 128] matrix whose left 64 columns
  make the key features and whose right 64 columns make the value features, and adds one bias row of length 128:
    fused(s, c) = Σ_k x(0, s, k) · W(k, c) + bias(c).
  The stored key rows are columns 0..63 of it and the stored value rows are columns 64..127. A narrowing of the
  float format is the identity on extended reals, so it leaves no trace here.
-/
import proofs.«125491_j31645319037145_2_alg».proof.Proof.Gen.KernelIdeal.Skeleton
import proofs.«125491_j31645319037145_2_alg».proof.Proof.Spec
import proofs.«125491_j31645319037145_2_alg».proof.Proof.LibPlainDot
import proofs.«125491_j31645319037145_2_alg».proof.Proof.LibColumn
import proofs.«125491_j31645319037145_2_alg».proof.Proof.LibRowReduce
import Idealize.ShloMosaic.Lib.ValueLayout

noncomputable section

namespace Cert.Attn.Payload

open Idealize.ShloMosaic Idealize.ShloMosaic.ValueIdx Cert.KernelIdeal Cert.KernelIdeal.Gen

/-- The dimension numbers of the fused projection are those of a plain 2048×64 by 64×128 product. -/
theorem dotKV_eq : dot_S2048x64_S64x128_S2048x128_1_0_0_1_n_n = DotDims.plain 2048 64 128 := rfl

/-- The fused projection at row `s` and column `c`. -/
theorem fused_apply (xkv : Vec Ideal S1x2048x64 .f32) (wkv : Vec Ideal S64x128 .f32) (bkv : Vec Ideal S128 .f32)
    (s : Fin 2048) (c : Fin 128) :
    k0_pay1 (F := Ideal) xkv wkv bkv (ix2 s c)
      = (∑ k : Fin 64, xkv (ix3 (0 : Fin 1) s k) * wkv (ix2 k c)) + bkv (ix1 c) := by
  unfold k0_pay1
  rw [addf_apply]
  refine congr (congrArg HAdd.hAdd ?_) ?_
  · refine (Cert.LibPlainDot.matmul_plain 2048 64 128 none _ _ (ix2 s c)).trans ?_
    refine Finset.sum_congr rfl fun k _ => ?_
    refine congr (congrArg HMul.hMul ?_) ?_
    · exact shapeCast_1ab_ab_apply xkv _ s k
    · exact congrFun (shapeCast_self wkv _) (ix2 k c)
  · rw [broadcastTo_1b_ab_apply, shapeCast_a_1a_apply, shapeCast_self]

/-- The stored key rows: column `d` of the left half of the fused projection. -/
theorem keys_apply (xkv : Vec Ideal S1x2048x64 .f32) (wkv : Vec Ideal S64x128 .f32) (bkv : Vec Ideal S128 .f32)
    (s : Fin 2048) (d : Fin 64) :
    k0_pay2 (F := Ideal) xkv wkv bkv (ix2 s d)
      = (∑ c : Fin 64, xkv (ix3 (0 : Fin 1) s c) * wkv (ix2 c (Fin.castAdd 64 d))) + bkv (ix1 (Fin.castAdd 64 d)) := by
  unfold k0_pay2
  rw [shapeCast_self]
  refine (slice2_axis1_apply 0 _ _ s d (Fin.castAdd 64 d) ?_).trans (fused_apply xkv wkv bkv s _)
  show d.val = 0 + d.val
  omega

/-- The stored value rows: column `d` of the right half of the fused projection. -/
theorem values_apply (xkv : Vec Ideal S1x2048x64 .f32) (wkv : Vec Ideal S64x128 .f32) (bkv : Vec Ideal S128 .f32)
    (s : Fin 2048) (d : Fin 64) :
    k0_pay3 (F := Ideal) xkv wkv bkv (ix2 s d)
      = (∑ c : Fin 64, xkv (ix3 (0 : Fin 1) s c) * wkv (ix2 c (Fin.natAdd 64 d))) + bkv (ix1 (Fin.natAdd 64 d)) := by
  unfold k0_pay3
  rw [shapeCast_self]
  refine (truncf_apply (ψ := .bf16) _ bitsLt_bf16_f32 (ix2 s d)).trans ?_
  refine (slice2_axis1_apply 64 _ _ s d (Fin.natAdd 64 d) ?_).trans (fused_apply xkv wkv bkv s _)
  rfl

end Cert.Attn.Payload

end
-- ==== Proof.SpecRows.lean ====
/-
  Attention of a query row depends only on that row: two families of query rows that agree at one row, against the
  same keys and values, give the same result at that row — whatever the rows are indexed by.
-/
import proofs.«125491_j31645319037145_2_alg».proof.Proof.Spec

noncomputable section

namespace Cert.Attn

/-- The divide-once arrangement at query row `t` of `q` is the one at row `t'` of `q'` when the two rows are equal and
    the keys and values agree entry by entry. -/
theorem normalizeLast_rows {T T' : Type} (q : T → Fin 64 → EReal) (q' : T' → Fin 64 → EReal)
    (k k' v v' : Fin 2048 → Fin 64 → EReal) (t : T) (t' : T')
    (hq : ∀ d, q t d = q' t' d) (hk : ∀ s d, k s d = k' s d) (hv : ∀ s d, v s d = v' s d) (d : Fin 64) :
    normalizeLast q k v t d = normalizeLast q' k' v' t' d := by
  have hk' : k = k' := funext fun s => funext (hk s)
  have hv' : v = v' := funext fun s => funext (hv s)
  subst hk' hv'
  have hs : ∀ s, score q k t s = score q' k t' s := fun s => by unfold score; simp only [hq]
  have ht : top q k t = top q' k t' := by unfold top; simp only [hs]
  have hw : ∀ s, weight q k t s = weight q' k t' s := fun s => by unfold weight; rw [hs, ht]
  unfold normalizeLast mass; simp only [hw]

end Cert.Attn

end
-- ==== Proof.KernelValue.lean ====
/-
  What the attention launch leaves in its result array, at the ideal values: the divide-once arrangement of attention
  over the projected rows of the input.

  Point t = 4·b + qi of the grid writes back rows qi·512 … qi·512 + 511 of batch element b. Its query block is those
  rows of x; its key/value block is all rows of batch element b; the fused weight is the key weight beside the value
  weight, the fused bias the key bias followed by the value bias. So the scratch buffers after point t hold the key
  and value projections of batch element b, and the tile written back is attention of the query rows against them.
  The 64 tiles cover the result array.
-/
import proofs.«125491_j31645319037145_2_alg».proof.Proof.FrameIdeal
import proofs.«125491_j31645319037145_2_alg».proof.Proof.KernelPayload
import proofs.«125491_j31645319037145_2_alg».proof.Proof.KernelPayloadKV
import proofs.«125491_j31645319037145_2_alg».proof.Proof.Spec
import proofs.«125491_j31645319037145_2_alg».proof.Proof.SpecRows
import Idealize.ShloMosaic.Lib.StableHlo.Run

set_option maxRecDepth 16384

noncomputable section

namespace Cert.KernelIdeal.HandValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.KernelIdeal.Hand Idealize.ShloMosaic.ValueIdx Cert.Attn

variable (m : (ℓ : Loc nD τ sig) → Buf (Elt Ideal) ℓ) (ρ : Dev nD → PrngReg)

/-! ## Where the blocks sit -/

/-- The printed index maps over the grid: the batch element is t / 4, the query tile t mod 4. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 3) = t.val / 4 ∧ win0_6.index t (1 : Fin 3) = t.val % 4 ∧ win0_6.index t (2 : Fin 3) = 0 :=
  (by decide +kernel : ∀ t : Fin grid0.N, _)

theorem tlt (t : Fin cfg0.N) : t.val < 64 := lt_of_lt_of_eq t.isLt (show cfg0.N = 64 from N_0)

/-- The batch element of point `t`. -/
def bOf (t : Fin cfg0.N) : Fin 16 := ⟨t.val / 4, by have := tlt t; omega⟩
/-- Row `r` of point `t`'s query tile, as a row of the batch element. -/
def rowOf (t : Fin cfg0.N) (r : Fin 512) : Fin 2048 := ⟨t.val % 4 * 512 + r.val, by have := r.isLt; omega⟩

/-- The query block is rows qi·512 … of batch element b of x. -/
theorem xq_apply (c : Dev nD) (t : Fin cfg0.N) (r : Fin 512) (k : Fin 64) :
    iblk m c 0 t (ix3 (0 : Fin 1) r k) = V m c main_arg0 (ix3 (bOf t) (rowOf t r) k) := by
  obtain ⟨e0, e1, e2, -⟩ := idx_facts t
  show V m c main_arg0 (((cfg0.win 0).blk t).view.emb (ix3 (0 : Fin 1) r k)) = V m c main_arg0 _
  refine congrArg (V m c main_arg0) (funext fun a => Fin.ext ?_)
  match a with
  | ⟨0, _⟩ => show win0_0.index t (0 : Fin 3) * 1 + 1 * 0 = t.val / 4; omega
  | ⟨1, _⟩ => show win0_0.index t (1 : Fin 3) * 512 + 1 * r.val = t.val % 4 * 512 + r.val; omega
  | ⟨2, _⟩ => show win0_0.index t (2 : Fin 3) * 64 + 1 * k.val = k.val; omega

/-- The key/value block is all of batch element b of x. -/
theorem xkv_apply (c : Dev nD) (t : Fin cfg0.N) (s : Fin 2048) (k : Fin 64) :
    iblk m c 1 t (ix3 (0 : Fin 1) s k) = V m c main_arg0 (ix3 (bOf t) s k) := by
  obtain ⟨-, -, -, e0, e1, e2, -⟩ := idx_facts t
  show V m c main_arg0 (((cfg0.win 1).blk t).view.emb (ix3 (0 : Fin 1) s k)) = V m c main_arg0 _
  refine congrArg (V m c main_arg0) (funext fun a => Fin.ext ?_)
  match a with
  | ⟨0, _⟩ => show win0_1.index t (0 : Fin 3) * 1 + 1 * 0 = t.val / 4; omega
  | ⟨1, _⟩ => show win0_1.index t (1 : Fin 3) * 2048 + 1 * s.val = s.val; omega
  | ⟨2, _⟩ => show win0_1.index t (2 : Fin 3) * 64 + 1 * k.val = k.val; omega

/-- The query weight's block is the whole weight. -/
theorem wq_apply (c : Dev nD) (t : Fin cfg0.N) (a b : Fin 64) :
    iblk m c 2 t (ix2 a b) = V m c main_arg3 (ix2 a b) := by
  obtain ⟨-, -, -, -, -, -, e0, e1, -⟩ := idx_facts t
  show V m c main_arg3 (((cfg0.win 2).blk t).view.emb (ix2 a b)) = V m c main_arg3 _
  refine congrArg (V m c main_arg3) (funext fun x => Fin.ext ?_)
  match x with
  | ⟨0, _⟩ => show win0_2.index t (0 : Fin 2) * 64 + 1 * a.val = a.val; omega
  | ⟨1, _⟩ => show win0_2.index t (1 : Fin 2) * 64 + 1 * b.val = b.val; omega

/-- The query bias's block is the whole bias. -/
theorem bq_apply (c : Dev nD) (t : Fin cfg0.N) (a : Fin 64) :
    iblk m c 3 t (ix1 a) = V m c main_arg4 (ix1 a) := by
  obtain ⟨-, -, -, -, -, -, -, -, e0, -⟩ := idx_facts t
  show V m c main_arg4 (((cfg0.win 3).blk t).view.emb (ix1 a)) = V m c main_arg4 _
  refine congrArg (V m c main_arg4) (funext fun x => Fin.ext ?_)
  match x with
  | ⟨0, _⟩ => show win0_3.index t (0 : Fin 1) * 64 + 1 * a.val = a.val; omega

/-- The fused weight's block is the whole fused weight. -/
theorem wkv_apply (c : Dev nD) (t : Fin cfg0.N) (a : Fin 64) (b : Fin 128) :
    iblk m c 4 t (ix2 a b) = V m c main_v0 (ix2 a b) := by
  obtain ⟨-, -, -, -, -, -, -, -, -, e0, e1, -⟩ := idx_facts t
  show V m c main_v0 (((cfg0.win 4).blk t).view.emb (ix2 a b)) = V m c main_v0 _
  refine congrArg (V m c main_v0) (funext fun x => Fin.ext ?_)
  match x with
  | ⟨0, _⟩ => show win0_4.index t (0 : Fin 2) * 64 + 1 * a.val = a.val; omega
  | ⟨1, _⟩ => show win0_4.index t (1 : Fin 2) * 128 + 1 * b.val = b.val; omega

/-- The fused bias's block is the whole fused bias. -/
theorem bkv_apply (c : Dev nD) (t : Fin cfg0.N) (a : Fin 128) :
    iblk m c 5 t (ix1 a) = V m c main_v1 (ix1 a) := by
  obtain ⟨-, -, -, -, -, -, -, -, -, -, -, e0, -⟩ := idx_facts t
  show V m c main_v1 (((cfg0.win 5).blk t).view.emb (ix1 a)) = V m c main_v1 _
  refine congrArg (V m c main_v1) (funext fun x => Fin.ext ?_)
  match x with
  | ⟨0, _⟩ => show win0_5.index t (0 : Fin 1) * 128 + 1 * a.val = a.val; omega

/-! ## The fused operands -/

/-- The fused weight is the key weight beside the value weight. -/
theorem V_v0 (c : Dev nD) : (V m c main_v0 : S64x128.Idx → EReal)
    = concatenate S64x128 1 [⟨S64x64, m ((c : Thread nD τ).loc main_arg1)⟩, ⟨S64x64, m ((c : Thread nD τ).loc main_arg5)⟩] Facts₀.concatenates_S64x64_S64x64_S64x128_d1 := by
  dsimp only [V, hostOps0]
  simp only [List.flatten_cons, List.flatten_nil, List.append_nil]
  after_results

/-- The fused bias is the key bias followed by the value bias. -/
theorem V_v1 (c : Dev nD) : (V m c main_v1 : S128.Idx → EReal)
    = concatenate S128 0 [⟨S64, m ((c : Thread nD τ).loc main_arg2)⟩, ⟨S64, m ((c : Thread nD τ).loc main_arg6)⟩] Facts₀.concatenates_S64_S64_S128_d0 := by
  dsimp only [V, hostOps0]
  simp only [List.flatten_cons, List.flatten_nil, List.append_nil]
  after_results

theorem wkv_left (c : Dev nD) (a d : Fin 64) :
    V m c main_v0 (ix2 a (Fin.castAdd 64 d)) = m ((c : Thread nD τ).loc main_arg1) (ix2 a d) := by
  rw [V_v0]
  exact concatenate_pair_apply_left (t := S64x128) (s₁ := S64x64) (s₂ := S64x64) (1 : Fin 2) (m ((c : Thread nD τ).loc main_arg1)) (m ((c : Thread nD τ).loc main_arg5))
    Facts₀.concatenates_S64x64_S64x64_S64x128_d1 (ix2 a (Fin.castAdd 64 d) : S64x128.Idx) rfl (ix2 a d : S64x64.Idx)
    (fun b => by match b with | ⟨0, _⟩ => rfl | ⟨1, _⟩ => rfl)

theorem wkv_right (c : Dev nD) (a d : Fin 64) :
    V m c main_v0 (ix2 a (Fin.natAdd 64 d)) = m ((c : Thread nD τ).loc main_arg5) (ix2 a d) := by
  rw [V_v0]
  exact concatenate_pair_apply_right (t := S64x128) (s₁ := S64x64) (s₂ := S64x64) (1 : Fin 2) (m ((c : Thread nD τ).loc main_arg1)) (m ((c : Thread nD τ).loc main_arg5))
    Facts₀.concatenates_S64x64_S64x64_S64x128_d1 (ix2 a (Fin.natAdd 64 d) : S64x128.Idx) rfl rfl (ix2 a d : S64x64.Idx)
    (fun b hb => by match b with | ⟨0, _⟩ => rfl | ⟨1, _⟩ => exact absurd rfl hb)
    (by show d.val + 64 = 64 + d.val; omega)

theorem bkv_left (c : Dev nD) (d : Fin 64) :
    V m c main_v1 (ix1 (Fin.castAdd 64 d)) = m ((c : Thread nD τ).loc main_arg2) (ix1 d) := by
  rw [V_v1]
  exact concatenate_pair_apply_left (t := S128) (s₁ := S64) (s₂ := S64) (0 : Fin 1) (m ((c : Thread nD τ).loc main_arg2)) (m ((c : Thread nD τ).loc main_arg6))
    Facts₀.concatenates_S64_S64_S128_d0 (ix1 (Fin.castAdd 64 d) : S128.Idx) rfl (ix1 d : S64.Idx)
    (fun b => by match b with | ⟨0, _⟩ => rfl)

theorem bkv_right (c : Dev nD) (d : Fin 64) :
    V m c main_v1 (ix1 (Fin.natAdd 64 d)) = m ((c : Thread nD τ).loc main_arg6) (ix1 d) := by
  rw [V_v1]
  exact concatenate_pair_apply_right (t := S128) (s₁ := S64) (s₂ := S64) (0 : Fin 1) (m ((c : Thread nD τ).loc main_arg2)) (m ((c : Thread nD τ).loc main_arg6))
    Facts₀.concatenates_S64_S64_S128_d0 (ix1 (Fin.natAdd 64 d) : S128.Idx) rfl rfl (ix1 d : S64.Idx)
    (fun b hb => by match b with | ⟨0, _⟩ => exact absurd rfl hb)
    (by show d.val + 64 = 64 + d.val; omega)

/-! ## The scratch buffers hold the projections of the batch element -/

/-- The batch element of position `n` of the grid. -/
def bOfN (n : ℕ) (hn : n < cfg0.N) : Fin 16 := ⟨n / 4, by have : cfg0.N = 64 := N_0; omega⟩

theorem bOf_eq (t : Fin cfg0.N) : bOf t = bOfN t.val t.isLt := rfl

/-- An affine form Σ_k x(k)·w(k) + b depends on w and b entry by entry. -/
theorem affine_congr (x w w' : Fin 64 → EReal) (b b' : EReal) (hw : ∀ k, w k = w' k) (hb : b = b') :
    (∑ k : Fin 64, x k * w k) + b = (∑ k : Fin 64, x k * w' k) + b' := by
  simp only [hw, hb]

/-- At point `t` the body projects the keys and the values of batch element t / 4. -/
theorem kvAt_apply (c : Dev nD) (t : Fin cfg0.N) (s : Fin 2048) (d : Fin 64) :
    (kvAt m c t).1 (ix2 s d)
        = proj (m ((c : Thread nD τ).loc main_arg0)) (m ((c : Thread nD τ).loc main_arg1)) (m ((c : Thread nD τ).loc main_arg2)) (bOf t) s d
      ∧ (kvAt m c t).2 (ix2 s d)
        = proj (m ((c : Thread nD τ).loc main_arg0)) (m ((c : Thread nD τ).loc main_arg5)) (m ((c : Thread nD τ).loc main_arg6)) (bOf t) s d := by
  have hx : V m c main_arg0 = m ((c : Thread nD τ).loc main_arg0) := V_arg m c main_arg0 (by decide) (by decide)
  constructor
  · refine (Payload.keys_apply (iblk m c 1 t) (iblk m c 4 t) (iblk m c 5 t) s d).trans ?_
    unfold proj
    simp only [xkv_apply, wkv_apply, bkv_apply, hx]
    exact affine_congr (fun x => m ((c : Thread nD τ).loc main_arg0) (ix3 (bOf t) s x)) (fun x => V m c main_v0 (ix2 x (Fin.castAdd 64 d)))
      (fun x => m ((c : Thread nD τ).loc main_arg1) (ix2 x d)) _ _ (fun x => wkv_left m c x d) (bkv_left m c d)
  · refine (Payload.values_apply (iblk m c 1 t) (iblk m c 4 t) (iblk m c 5 t) s d).trans ?_
    unfold proj
    simp only [xkv_apply, wkv_apply, bkv_apply, hx]
    exact affine_congr (fun x => m ((c : Thread nD τ).loc main_arg0) (ix3 (bOf t) s x)) (fun x => V m c main_v0 (ix2 x (Fin.natAdd 64 d)))
      (fun x => m ((c : Thread nD τ).loc main_arg5) (ix2 x d)) _ _ (fun x => wkv_right m c x d) (bkv_right m c d)

/-- After position `n` the scratch buffers hold the key and value projections of batch element n / 4: written at the
    first tile of the batch element, kept through its later tiles. -/
theorem scr_apply (c : Dev nD) (n : ℕ) : ∀ (hn : n < cfg0.N) (s : Fin 2048) (d : Fin 64),
    (scr m c n hn).1 (ix2 s d)
        = proj (m ((c : Thread nD τ).loc main_arg0)) (m ((c : Thread nD τ).loc main_arg1)) (m ((c : Thread nD τ).loc main_arg2)) (bOfN n hn) s d
      ∧ (scr m c n hn).2 (ix2 s d)
        = proj (m ((c : Thread nD τ).loc main_arg0)) (m ((c : Thread nD τ).loc main_arg5)) (m ((c : Thread nD τ).loc main_arg6)) (bOfN n hn) s d := by
  induction n with
  | zero => intro hn s d; exact kvAt_apply m c ⟨0, hn⟩ s d
  | succ n ih =>
    intro hn s d
    by_cases h : (n + 1) % 4 = 0
    · rw [show scr m c (n + 1) hn = kvAt m c ⟨n + 1, hn⟩ from if_pos h]
      exact kvAt_apply m c ⟨n + 1, hn⟩ s d
    · rw [show scr m c (n + 1) hn = scr m c n (Nat.lt_of_succ_lt hn) from if_neg h]
      have e : bOfN (n + 1) hn = bOfN n (Nat.lt_of_succ_lt hn) := Fin.ext (by show (n + 1) / 4 = n / 4; omega)
      rw [e]
      exact ih (Nat.lt_of_succ_lt hn) s d

/-! ## The tile written back at a point, and the whole array -/

/-- The result array: the divide-once arrangement of attention over the projected rows of x. -/
def G (c : Dev nD) : S16x2048x64.Idx → EReal :=
  wholeLast (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- What point `t` writes back is its block of the result array. -/
theorem tile_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after6]
  funext j
  obtain ⟨u, r, d, rfl⟩ : ∃ (u : Fin 1) (r : Fin 512) (d : Fin 64), j = ix3 u r d := ⟨j 0, j 1, j 2, eq_ix3 j⟩
  obtain rfl : u = 0 := Subsingleton.elim _ _
  obtain ⟨-, -, -, -, -, -, -, -, -, -, -, -, e0, e1, e2⟩ := idx_facts t
  have hi : ((cfg0.win 6).blk t).view.emb (ix3 (0 : Fin 1) r d) = ix3 (bOf t) (rowOf t r) d :=
    funext fun a => Fin.ext (by
      match a with
      | ⟨0, _⟩ => show win0_6.index t (0 : Fin 3) * 1 + 1 * 0 = t.val / 4; omega
      | ⟨1, _⟩ => show win0_6.index t (1 : Fin 3) * 512 + 1 * r.val = t.val % 4 * 512 + r.val; omega
      | ⟨2, _⟩ => show win0_6.index t (2 : Fin 3) * 64 + 1 * d.val = d.val; omega)
  show outAt m c t (ix3 (0 : Fin 1) r d) = G m c (((cfg0.win 6).blk t).view.emb (ix3 (0 : Fin 1) r d))
  rw [hi]
  unfold outAt
  refine (Payload.out_apply (iblk m c 0 t) (iblk m c 2 t) (iblk m c 3 t) (scr m c t.val t.isLt).1 (scr m c t.val t.isLt).2 r d).trans ?_
  have hx : V m c main_arg0 = m ((c : Thread nD τ).loc main_arg0) := V_arg m c main_arg0 (by decide) (by decide)
  have hwq : V m c main_arg3 = m ((c : Thread nD τ).loc main_arg3) := V_arg m c main_arg3 (by decide) (by decide)
  have hbq : V m c main_arg4 = m ((c : Thread nD τ).loc main_arg4) := V_arg m c main_arg4 (by decide) (by decide)
  show _ = normalizeLast (proj (m ((c : Thread nD τ).loc main_arg0)) (m ((c : Thread nD τ).loc main_arg3)) (m ((c : Thread nD τ).loc main_arg4)) (bOf t))
      (proj (m ((c : Thread nD τ).loc main_arg0)) (m ((c : Thread nD τ).loc main_arg1)) (m ((c : Thread nD τ).loc main_arg2)) (bOf t))
      (proj (m ((c : Thread nD τ).loc main_arg0)) (m ((c : Thread nD τ).loc main_arg5)) (m ((c : Thread nD τ).loc main_arg6)) (bOf t)) (rowOf t r) d
  exact normalizeLast_rows _ _ _ _ _ _ r (rowOf t r)
    (fun d' => by unfold proj; simp only [xq_apply, wq_apply, bq_apply, hx, hwq, hbq])
    (fun s d' => (scr_apply m c t.val t.isLt s d').1) (fun s d' => (scr_apply m c t.val t.isLt s d').2) d

/-- An index of the result array is in point `t`'s block iff each coordinate is in the block's range on its axis. -/
theorem mem_tile (t : Fin cfg0.N) (i : S16x2048x64.Idx) :
    i ∈ ((cfg0.win 6).blk t).view.set ↔ ∀ a : Fin 3, win0_6.index t a * S1x512x64.size a ≤ (i a).val ∧ (i a).val < win0_6.index t a * S1x512x64.size a + S1x512x64.size a := by
  show i ∈ ((View.whole main_v2).slice (win0_6.rect t)).set ↔ _
  rw [View.set_slice_whole, Rect.mem_set_unit]
  exact Iff.rfl

/-- Every index of the result array is in the block of the point 4·b + ⌊row / 512⌋. -/
theorem tiles_cover (i : S16x2048x64.Idx) :
    ∃ t : Fin cfg0.N, (cfg0.win 6).flush t = true ∧ i ∈ ((cfg0.win 6).blk t).view.set := by
  have h0 : (i 0).val < 16 := (i 0).isLt
  have h1 : (i 1).val < 2048 := (i 1).isLt
  have h2 : (i 2).val < 64 := (i 2).isLt
  have hN : cfg0.N = 64 := N_0
  let t : Fin cfg0.N := ⟨(i 0).val * 4 + (i 1).val / 512, by omega⟩
  obtain ⟨-, -, -, -, -, -, -, -, -, -, -, -, e0, e1, e2⟩ := idx_facts t
  have ht : t.val = (i 0).val * 4 + (i 1).val / 512 := rfl
  refine ⟨t, flush0_6 t, ?_⟩
  rw [mem_tile]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 64 ≤ (i 2).val ∧ (i 2).val < win0_6.index t (2 : Fin 3) * 64 + 64; omega

/-- The result array after the run. -/
theorem final (c : Dev nD) : (dats m 0 c).arrAt 6 cfg0.N = G m c :=
  (dats m 0 c).arrAt_eq_of_cover 6 (G m c) (fun t _ => tile_eq m c t) tiles_cover

/-- The run, read: the result array ends at attention over the projected rows, and the arguments end unchanged. -/
theorem run : θ_run defs (onTc (τ := τ) (main (F := Ideal))) ⟨m, fun _ => 0, ρ⟩ fun r => ∀ c : Dev nD,
      r.2.mem ((c.tc : Thread nD τ).loc main_v2) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 6).trans (final m c), kept_of_post m r h c⟩) (run_main m ρ)

end Cert.KernelIdeal.HandValue

end
-- ==== Proof.LibBatchMax.lean ====
/-
  Maximum reductions of a stack of matrices on the host, at the ideal values.
  For an [n0, n1, n2] array:
    * reduced along its last axis into [n0, n1], the host's maximum reduction reads, at (b, c), the fold of max over r < n2 of
      the entries (b, c, r), started from the initial value;
    * reduced along its middle axis into [n0, n2], it reads, at (b, r), the fold of max over c < n1 of the entries (b, c, r),
      started from the initial value.
  The extents are variables, so nothing here is computed on a literal shape.
-/
import Idealize.ShloMosaic.PureOps.Ideal.Laws
import Idealize.ShloMosaic.PureOps.Reduce
import Idealize.ShloMosaic.Lib.ValueIdx

noncomputable section

namespace Cert.LibBatchMax

open Idealize.ShloMosaic Idealize.ShloMosaic.ValueIdx

variable {n0 n1 n2 : ℕ}

/-- Over position (b, c) of the reduced array, with r inserted on the last axis, lies the index (b, c, r). -/
theorem lift_last (h : (⟨3, ![n0, n1, n2]⟩ : Shape).Reduces [2] ⟨2, ![n0, n1]⟩) (b : Fin n0) (c : Fin n1) (r : Fin n2) :
    h.lift (ix2 b c) r = ix3 b c r :=
  funext fun d => Fin.ext (by match d with | ⟨0, _⟩ => rfl | ⟨1, _⟩ => rfl | ⟨2, _⟩ => rfl)

/-- Over position (b, r) of the reduced array, with c inserted on the middle axis, lies the index (b, c, r). -/
theorem lift_mid (h : (⟨3, ![n0, n1, n2]⟩ : Shape).Reduces [1] ⟨2, ![n0, n2]⟩) (b : Fin n0) (r : Fin n2) (c : Fin n1) :
    h.lift (ix2 b r) c = ix3 b c r :=
  funext fun d => Fin.ext (by match d with | ⟨0, _⟩ => rfl | ⟨1, _⟩ => rfl | ⟨2, _⟩ => rfl)

/-- The host's maximum along the last axis. -/
theorem hostMax_last {φ : FTy} {u : Shape} (x : FVec Ideal ⟨3, ![n0, n1, n2]⟩ φ) (init : u.Idx → Ideal φ)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (b : Fin n0) (c : Fin n1) :
    Host.reduce FloatOps.maximumf x init h' hu (ix2 b c)
      = (Finset.univ : Finset (Fin n2)).fold max (init (Shape.Idx.first hu)) (fun r => x (ix3 b c r)) := by
  refine (Host.reduce_eq_fold_single FloatOps.maximumf x init h' h hu (ix2 b c)).trans ?_
  exact congrArg (Finset.fold max (init (Shape.Idx.first hu)) · (Finset.univ : Finset (Fin n2)))
    (funext fun r => congrArg x (lift_last h b c r))

/-- The host's maximum along the middle axis. -/
theorem hostMax_mid {φ : FTy} {u : Shape} (x : FVec Ideal ⟨3, ![n0, n1, n2]⟩ φ) (init : u.Idx → Ideal φ)
    (h' : (⟨3, ![n0, n1, n2]⟩ : Shape).ReducesTo [1] ⟨2, ![n0, n2]⟩) (h : (⟨3, ![n0, n1, n2]⟩ : Shape).Reduces [1] ⟨2, ![n0, n2]⟩)
    (hu : 0 < u.numel) (b : Fin n0) (r : Fin n2) :
    Host.reduce FloatOps.maximumf x init h' hu (ix2 b r)
      = (Finset.univ : Finset (Fin n1)).fold max (init (Shape.Idx.first hu)) (fun c => x (ix3 b c r)) := by
  refine (Host.reduce_eq_fold_single FloatOps.maximumf x init h' h hu (ix2 b r)).trans ?_
  exact congrArg (Finset.fold max (init (Shape.Idx.first hu)) · (Finset.univ : Finset (Fin n1)))
    (funext fun c => congrArg x (lift_mid h b r c))

end Cert.LibBatchMax

end
-- ==== Proof.RefSide.lean ====
import proofs.«125491_j31645319037145_2_alg».proof.Proof.Gen.ReferenceIdeal.Read
import proofs.«125491_j31645319037145_2_alg».proof.Proof.Spec
import proofs.«125491_j31645319037145_2_alg».proof.Proof.LibBatchMax

/-
  The idealized reference computes single-head attention in the divide-each-weight arrangement.

  Read one operation at a time, at an index:
    * the three projections   x·W + b          are `proj` of the input rows;
    * the scaled products     (q·k) · 8        are `score`;
    * the row maxima, folded from -∞ and then compared with -∞ once more (max ⊥ y = y), are `top`;
    * exp (score − top) is `weight`, its row sum from 0 is `mass`;
    * the quotient weight / mass, summed against the value rows, is `normalizeFirst`.
-/

noncomputable section

namespace Cert.Attn.RefSide

open Cert.ReferenceIdeal Cert.ReferenceIdeal.Gen Cert.ReferenceIdeal.Read Idealize.ShloMosaic Idealize.ShloMosaic.ValueIdx
open Cert.Attn

/-- The word 0xFF800000 denotes -∞. -/
theorem negInf_word : FloatOps.ofBits (F := Ideal) .f32 0xFF800000#32 = (⊥ : EReal) := by
  simp [Ideal.ofBits, Ideal.ieee]

/-- The all-zero word denotes 0. -/
theorem zero_word : FloatOps.ofBits (F := Ideal) .f32 0x00000000#32 = (0 : EReal) := by
  simp [Ideal.ofBits, Ideal.ieee]

variable (x0 : (⟨S16x2048x64, .f32⟩ : BufTy).Contents (Elt Ideal))
  (x1 : (⟨S64x64, .f32⟩ : BufTy).Contents (Elt Ideal)) (x2 : (⟨S64, .f32⟩ : BufTy).Contents (Elt Ideal))
  (x3 : (⟨S64x64, .f32⟩ : BufTy).Contents (Elt Ideal)) (x4 : (⟨S64, .f32⟩ : BufTy).Contents (Elt Ideal))
  (x5 : (⟨S64x64, .f32⟩ : BufTy).Contents (Elt Ideal)) (x6 : (⟨S64, .f32⟩ : BufTy).Contents (Elt Ideal))

/-- The key rows: x·W₁ + b₂ at (b, t, d). -/
theorem keys_apply (b : Fin 16) (t : Fin 2048) (d : Fin 64) :
    val_main_v3 (F := Ideal) x0 x1 x2 (ix3 b t d) = proj x0 x1 x2 b t d := by
  rw [val_main_v3_apply, val_main_v0_apply, val_main_v2_apply, val_main_v1_apply]
  unfold proj
  simp only [Ideal.addf_def]
  refine congrArg₂ (· + ·) (Finset.sum_congr rfl fun c _ => ?_) (congrArg x2 ?_)
  · refine congrArg₂ (· * ·) (congrArg x0 ?_) (congrArg x1 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact funext fun a => Fin.ext (by match a with | ⟨0, _⟩ => rfl)

/-- The query rows. -/
theorem queries_apply (b : Fin 16) (t : Fin 2048) (d : Fin 64) :
    val_main_v7 (F := Ideal) x0 x3 x4 (ix3 b t d) = proj x0 x3 x4 b t d := by
  rw [val_main_v7_apply, val_main_v4_apply, val_main_v6_apply, val_main_v5_apply]
  unfold proj
  simp only [Ideal.addf_def]
  refine congrArg₂ (· + ·) (Finset.sum_congr rfl fun c _ => ?_) (congrArg x4 ?_)
  · refine congrArg₂ (· * ·) (congrArg x0 ?_) (congrArg x3 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact funext fun a => Fin.ext (by match a with | ⟨0, _⟩ => rfl)

/-- The value rows. -/
theorem values_apply (b : Fin 16) (t : Fin 2048) (d : Fin 64) :
    val_main_v11 (F := Ideal) x0 x5 x6 (ix3 b t d) = proj x0 x5 x6 b t d := by
  rw [val_main_v11_apply, val_main_v8_apply, val_main_v10_apply, val_main_v9_apply]
  unfold proj
  simp only [Ideal.addf_def]
  refine congrArg₂ (· + ·) (Finset.sum_congr rfl fun c _ => ?_) (congrArg x6 ?_)
  · refine congrArg₂ (· * ·) (congrArg x0 ?_) (congrArg x5 ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)
  · exact funext fun a => Fin.ext (by match a with | ⟨0, _⟩ => rfl)

/-- The scaled products of query row t and key row s of batch element b. -/
theorem scores_apply (b : Fin 16) (t s : Fin 2048) :
    val_main_v14 (F := Ideal) x0 x1 x2 x3 x4 (ix3 b t s) = score (proj x0 x3 x4 b) (proj x0 x1 x2 b) t s := by
  rw [val_main_v14_apply, val_main_v12_apply, val_main_v13_apply, val_main_cst_apply]
  unfold score eight
  simp only [Ideal.mulf_def]
  refine congrArg (· * _) (Finset.sum_congr rfl fun c _ => ?_)
  have el : lidx_main_v12 (ix3 b t s) c = ix3 b t c :=
    funext fun a => Fin.ext (by match a with | ⟨0, _⟩ => rfl | ⟨1, _⟩ => rfl | ⟨2, _⟩ => rfl)
  have er : ridx_main_v12 (ix3 b t s) c = ix3 b s c :=
    funext fun a => Fin.ext (by match a with | ⟨0, _⟩ => rfl | ⟨1, _⟩ => rfl | ⟨2, _⟩ => rfl)
  rw [el, er, queries_apply, keys_apply]

/-- The row maxima. -/
theorem tops_apply (b : Fin 16) (t : Fin 2048) :
    val_main_v17 (F := Ideal) x0 x1 x2 x3 x4 (ix2 b t) = top (proj x0 x3 x4 b) (proj x0 x1 x2 b) t := by
  rw [val_main_v17_apply, val_main_v16_apply, val_main_cst_1_apply]
  unfold val_main_v15
  rw [Cert.LibBatchMax.hostMax_last _ _ reducesTo_S16x2048x2048_S16x2048_d2 (by decide) h_S_ b t]
  rw [val_main_cst_0_apply, Ideal.maximumf_def, negInf_word]
  rw [max_eq_right bot_le, ← negInf_word]
  unfold top negInf
  exact congrArg (Finset.fold max _ · (Finset.univ : Finset (Fin 2048))) (funext fun s => scores_apply x0 x1 x2 x3 x4 b t s)

/-- The unnormalized weights. -/
theorem weights_apply (b : Fin 16) (t s : Fin 2048) :
    val_main_v21 (F := Ideal) x0 x1 x2 x3 x4 (ix3 b t s) = weight (proj x0 x3 x4 b) (proj x0 x1 x2 b) t s := by
  rw [val_main_v21_apply, val_main_v20_apply, val_main_v19_apply, val_main_v18_apply]
  have e : idx_main_v18 (idx_main_v19 (ix3 b t s)) = ix2 b t :=
    funext fun a => Fin.ext (by match a with | ⟨0, _⟩ => rfl | ⟨1, _⟩ => rfl)
  rw [e, tops_apply, scores_apply]
  unfold weight
  simp only [Ideal.hostUnary_exp_def, Ideal.subf_def]

/-- The row sums of the weights. -/
theorem masses_apply (b : Fin 16) (t : Fin 2048) :
    val_main_v22 (F := Ideal) x0 x1 x2 x3 x4 (ix2 b t) = mass (proj x0 x3 x4 b) (proj x0 x1 x2 b) t := by
  rw [val_main_v22_apply, val_main_cst_2_apply, zero_word, zero_add]
  unfold mass
  refine Finset.sum_congr rfl fun s _ => ?_
  have e : idx_main_v22 (ix2 b t) s = ix3 b t s :=
    funext fun a => Fin.ext (by match a with | ⟨0, _⟩ => rfl | ⟨1, _⟩ => rfl | ⟨2, _⟩ => rfl)
  rw [e, weights_apply]

/-- The normalized weights. -/
theorem shares_apply (b : Fin 16) (t s : Fin 2048) :
    val_main_v25 (F := Ideal) x0 x1 x2 x3 x4 (ix3 b t s)
      = Ideal.div (weight (proj x0 x3 x4 b) (proj x0 x1 x2 b) t s) (mass (proj x0 x3 x4 b) (proj x0 x1 x2 b) t) := by
  rw [val_main_v25_apply, val_main_v24_apply, val_main_v23_apply]
  have e : idx_main_v23 (idx_main_v24 (ix3 b t s)) = ix2 b t :=
    funext fun a => Fin.ext (by match a with | ⟨0, _⟩ => rfl | ⟨1, _⟩ => rfl)
  rw [e, masses_apply, weights_apply, Ideal.hostDivf_def]

/-- The reference's result at (b, t, d). -/
theorem result_apply (b : Fin 16) (t : Fin 2048) (d : Fin 64) :
    val_main_v26 (F := Ideal) x0 x1 x2 x3 x4 x5 x6 (ix3 b t d)
      = normalizeFirst (proj x0 x3 x4 b) (proj x0 x1 x2 b) (proj x0 x5 x6 b) t d := by
  rw [val_main_v26_apply]
  unfold normalizeFirst
  refine Finset.sum_congr rfl fun s _ => ?_
  have el : lidx_main_v26 (ix3 b t d) s = ix3 b t s :=
    funext fun a => Fin.ext (by match a with | ⟨0, _⟩ => rfl | ⟨1, _⟩ => rfl | ⟨2, _⟩ => rfl)
  have er : ridx_main_v26 (ix3 b t d) s = ix3 b s d :=
    funext fun a => Fin.ext (by match a with | ⟨0, _⟩ => rfl | ⟨1, _⟩ => rfl | ⟨2, _⟩ => rfl)
  rw [el, er, shares_apply, values_apply]

/-- The idealized reference's result is attention, in the divide-each-weight arrangement, of the projected rows. -/
theorem ref_eq (x : FVec Ideal S16x2048x64 .f32) (Wk : FVec Ideal S64x64 .f32) (bk : FVec Ideal S64 .f32)
    (Wq : FVec Ideal S64x64 .f32) (bq : FVec Ideal S64 .f32) (Wv : FVec Ideal S64x64 .f32) (bv : FVec Ideal S64 .f32) :
    val_main_v26 (F := Ideal) x Wk bk Wq bq Wv bv = wholeFirst x Wk bk Wq bq Wv bv := by
  funext i
  obtain ⟨b, t, d, rfl⟩ : ∃ b t d, i = ix3 b t d := ⟨i 0, i 1, i 2, eq_ix3 i⟩
  exact result_apply x Wk bk Wq bq Wv bv b t d

open Idealize.ShloMosaic.TcCoe Idealize.SL.Sem in
/-- The term the reference's run ends with, at the ideal values: attention of the launch contents of the seven arguments. -/
theorem res_eq (m : (ℓ : Loc nD τ sig) → Buf (Elt Ideal) ℓ) (c : Dev nD) :
    Cert.ReferenceIdeal.Value.res_main_v26 (F := Ideal) m c
      = wholeFirst (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v26_eq (F := Ideal) m c).trans (ref_eq _ _ _ _ _ _ _)

end Cert.Attn.RefSide

end
-- ==== Proof.Finite.lean ====
/-
  From the finiteness precondition to "every entry of every argument is a real number".

  The precondition takes, for each of the seven arrays, the magnitude of every entry, compares it with +∞,
  takes the conjunction over all entries, and conjoins the seven answers. When the result is true every
  entry x has max x (-x) < +∞; an extended real with that property is neither -∞ nor +∞, so it is a real.
-/
import proofs.«125491_j31645319037145_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Attn.Finite

open Idealize.ShloMosaic Cert.Pre_finite_inputs

/-- The shape of a scalar has one index. -/
instance : Subsingleton S_.Idx := ⟨fun a b => funext fun d => d.elim0⟩

/-- The word compared against denotes +∞. -/
theorem posInf_eq : Ideal.ofBits .f32 0x7F800000#32 = ⊤ := by
  simp [Ideal.ofBits, Ideal.ieee]

/-- An extended real whose magnitude is strictly below +∞ is a real. -/
theorem real_of_abs_lt (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  rw [posInf_eq, Ideal.hostAbsf_def, Ideal.cmpf_def, Ideal.absf_def] at h
  induction x using EReal.rec with
  | bot => exfalso; revert h; simp [Ideal.cmp]
  | coe r => exact ⟨r, rfl⟩
  | top => exfalso; revert h; simp [Ideal.cmp]

/-- One array: if the conjunction over all entries of "magnitude below +∞" is true, every entry is a real. -/
theorem reals_of_all {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
        (cmpf .olt (Host.absf x) (broadcastInDim s ![] bc (constant (F := Ideal) S_ .f32 0x7F800000#32)))
        (constantI S_ 1 1#1) hr hu ValueIdx.ix0 = 1#1)
    (i : s.Idx) : ∃ r : ℝ, x i = (r : EReal) :=
  real_of_abs_lt (x i) (Host.reduce_andi_all _ _ hr hu _ e i)

/-- The precondition gives: every entry of each of the seven arguments is a real. -/
theorem reals_of_pre (a0 : FVec Ideal S16x2048x64 .f32) (a1 : FVec Ideal S64x64 .f32) (a2 : FVec Ideal S64 .f32)
    (a3 : FVec Ideal S64x64 .f32) (a4 : FVec Ideal S64 .f32) (a5 : FVec Ideal S64x64 .f32) (a6 : FVec Ideal S64 .f32)
    [Cert.Pre_finite_inputs.Facts]
    (h : Cert.Pre_finite_inputs.fn (F := Ideal) a0 a1 a2 a3 a4 a5 a6 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) := by
  have h0 := congrFun h ValueIdx.ix0
  dsimp only [fn, fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨reals_of_all a0 _ _ _ h0, reals_of_all a1 _ _ _ h1, reals_of_all a2 _ _ _ h2, reals_of_all a3 _ _ _ h3,
    reals_of_all a4 _ _ _ h4, reals_of_all a5 _ _ _ h5, reals_of_all a6 _ _ _ h6⟩

end Cert.Attn.Finite

end
-- ==== Proof.Law.lean ====
/-
  On real rows the two arrangements of attention agree.

  With real query and key rows every score is a real number; the maximum over the 2048 key positions,
  folded from -∞, is attained at one of them and is therefore a real; each weight exp(score − top) is a
  positive real, so the total weight L is a positive real, and division by L is multiplication by the real
  1/L. Over the reals (Σ_s w_s · v_s) · L⁻¹ = Σ_s (w_s · L⁻¹) · v_s.
-/
import proofs.«125491_j31645319037145_2_alg».proof.Proof.Spec

noncomputable section

namespace Cert.Attn

open Idealize.ShloMosaic

/-- The coercion of reals into the extended reals commutes with finite sums. -/
theorem coe_finsum {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The scale word denotes the real number 8. -/
theorem eight_eq : eight = ((8 : ℝ) : EReal) := by
  simp [eight, Ideal.ofBits, Ideal.ieee, -EReal.coe_mul]; norm_num

/-- The word from which the maxima are folded denotes -∞. -/
theorem negInf_eq : negInf = ⊥ := by
  simp [negInf, Ideal.ofBits, Ideal.ieee]

variable {T : Type}

/-- With real rows every score is a real. -/
theorem score_real (q : T → Fin 64 → EReal) (k : Fin 2048 → Fin 64 → EReal)
    (hq : ∀ t d, ∃ r : ℝ, q t d = (r : EReal)) (hk : ∀ s d, ∃ r : ℝ, k s d = (r : EReal))
    (t : T) (s : Fin 2048) : ∃ r : ℝ, score q k t s = (r : EReal) := by
  choose qr hqr using hq
  choose kr hkr using hk
  refine ⟨(∑ d : Fin 64, qr t d * kr s d) * 8, ?_⟩
  unfold score
  simp only [hqr, hkr, eight_eq, ← EReal.coe_mul, coe_finsum]

/-- With real rows the largest score is a real: the fold from -∞ over a nonempty range is attained. -/
theorem top_real (q : T → Fin 64 → EReal) (k : Fin 2048 → Fin 64 → EReal)
    (hq : ∀ t d, ∃ r : ℝ, q t d = (r : EReal)) (hk : ∀ s d, ∃ r : ℝ, k s d = (r : EReal))
    (t : T) : ∃ r : ℝ, top q k t = (r : EReal) := by
  have h : top q k t = (Finset.univ : Finset (Fin 2048)).sup (fun s => score q k t s) := by
    unfold top; rw [negInf_eq]; rfl
  obtain ⟨s, -, hs⟩ := Finset.exists_mem_eq_sup (Finset.univ : Finset (Fin 2048)) Finset.univ_nonempty
    (fun s => score q k t s)
  obtain ⟨r, hr⟩ := score_real q k hq hk t s
  exact ⟨r, by rw [h, hs, hr]⟩

/-- On real rows, dividing the weighted sum once equals dividing each weight before summing. -/
theorem normalizeLast_eq_normalizeFirst (q : T → Fin 64 → EReal) (k v : Fin 2048 → Fin 64 → EReal)
    (hq : ∀ t d, ∃ r : ℝ, q t d = (r : EReal)) (hk : ∀ s d, ∃ r : ℝ, k s d = (r : EReal))
    (hv : ∀ s d, ∃ r : ℝ, v s d = (r : EReal)) (t : T) (d : Fin 64) :
    normalizeLast q k v t d = normalizeFirst q k v t d := by
  choose a ha using fun s => score_real q k hq hk t s
  choose vr hvr using hv
  obtain ⟨m, hm⟩ := top_real q k hq hk t
  have hw : ∀ s, weight q k t s = ((Real.exp (a s - m) : ℝ) : EReal) := by
    intro s
    unfold weight
    rw [ha, hm, ← EReal.coe_sub, Ideal.exp_coe]
  have hmass : mass q k t = ((∑ s : Fin 2048, Real.exp (a s - m) : ℝ) : EReal) := by
    unfold mass
    simp only [hw]
    exact coe_finsum _ _
  have hL : (∑ s : Fin 2048, Real.exp (a s - m)) ≠ 0 :=
    (Finset.sum_pos (fun s _ => Real.exp_pos _) Finset.univ_nonempty).ne'
  unfold normalizeLast normalizeFirst
  rw [hmass]
  simp only [Ideal.div_coe hL, hw, hvr, ← EReal.coe_mul, coe_finsum]
  congr 1
  rw [Finset.sum_mul]
  exact Finset.sum_congr rfl fun s _ => by ring

end Cert.Attn

end
-- ==== Proof.Bridge.lean ====
/-
  On real inputs the two arrangements of attention agree on the whole result array.

  A projected row Σ_c x(b, t, c) · W(c, d) + bias(d) of real entries is real, so the query, key and value rows are
  real, and on real rows dividing the weighted sum once by the total weight is dividing each weight first.
-/
import proofs.«125491_j31645319037145_2_alg».proof.Proof.Spec
import proofs.«125491_j31645319037145_2_alg».proof.Proof.Law

noncomputable section

namespace Cert.Attn

open Idealize.ShloMosaic Idealize.ShloMosaic.ValueIdx

/-- A projection of real entries is real. -/
theorem proj_real (x : (⟨3, ![16, 2048, 64]⟩ : Shape).Idx → EReal) (W : (⟨2, ![64, 64]⟩ : Shape).Idx → EReal)
    (bias : (⟨1, ![64]⟩ : Shape).Idx → EReal)
    (hx : ∀ i, ∃ r : ℝ, x i = (r : EReal)) (hW : ∀ i, ∃ r : ℝ, W i = (r : EReal)) (hb : ∀ i, ∃ r : ℝ, bias i = (r : EReal))
    (b : Fin 16) (t : Fin 2048) (d : Fin 64) : ∃ r : ℝ, proj x W bias b t d = (r : EReal) := by
  choose xr hxr using hx
  choose wr hwr using hW
  choose br hbr using hb
  refine ⟨(∑ c : Fin 64, xr (ix3 b t c) * wr (ix2 c d)) + br (ix1 d), ?_⟩
  unfold proj
  simp only [hxr, hwr, hbr, ← EReal.coe_mul]
  rw [coe_finsum, ← EReal.coe_add]

/-- On real inputs the divide-once arrangement of the whole array is the divide-each-weight arrangement. -/
theorem wholeLast_eq_wholeFirst (x : (⟨3, ![16, 2048, 64]⟩ : Shape).Idx → EReal)
    (Wk : (⟨2, ![64, 64]⟩ : Shape).Idx → EReal) (bk : (⟨1, ![64]⟩ : Shape).Idx → EReal)
    (Wq : (⟨2, ![64, 64]⟩ : Shape).Idx → EReal) (bq : (⟨1, ![64]⟩ : Shape).Idx → EReal)
    (Wv : (⟨2, ![64, 64]⟩ : Shape).Idx → EReal) (bv : (⟨1, ![64]⟩ : Shape).Idx → EReal)
    (hx : ∀ i, ∃ r : ℝ, x i = (r : EReal))
    (hWk : ∀ i, ∃ r : ℝ, Wk i = (r : EReal)) (hbk : ∀ i, ∃ r : ℝ, bk i = (r : EReal))
    (hWq : ∀ i, ∃ r : ℝ, Wq i = (r : EReal)) (hbq : ∀ i, ∃ r : ℝ, bq i = (r : EReal))
    (hWv : ∀ i, ∃ r : ℝ, Wv i = (r : EReal)) (hbv : ∀ i, ∃ r : ℝ, bv i = (r : EReal)) :
    wholeLast x Wk bk Wq bq Wv bv = wholeFirst x Wk bk Wq bq Wv bv :=
  funext fun i => normalizeLast_eq_normalizeFirst _ _ _
    (fun t d => proj_real x Wq bq hx hWq hbq (i 0) t d) (fun s d => proj_real x Wk bk hx hWk hbk (i 0) s d)
    (fun s d => proj_real x Wv bv hx hWv hbv (i 0) s d) (i 1) (i 2)

end Cert.Attn

end
-- ==== Proof.lean ====
/-
  Single-head attention, tiled over query rows with the keys and values of a batch element cached across its tiles,
  against the plain reference.

  The kernel runs a 16 × 4 grid of (batch element, query tile). At the first tile of a batch element it projects the
  element's 2048 rows to keys and values (one fused product against the key weight beside the value weight) and keeps
  them in scratch; at every tile it projects 512 query rows, scores them against all keys (scaled by 8), subtracts each
  row's maximum, exponentiates, and divides the weighted sum of the values ONCE by the row's total weight. The
  reference projects the whole input, takes the softmax of the scaled scores — each weight divided by its row's total —
  and then sums the values.

  The three frames: the kernel's run is followed point by point (the scratch contents carried as an invariant, the
  input array read through two windows sharing it), at the word level and at the ideal values alike; the reference's
  is its straight-line run. The idealization rewrote nothing. At the ideal values both results are attention over the
  same projected rows; they differ only in where the division by the total weight stands, and under the
  precondition (every input entry a real number) the rows are real, the total weight is a positive real, and a
  quotient by it distributes over the finite sum.
-/
import proofs.«125491_j31645319037145_2_alg».proof.Defs
import proofs.«125491_j31645319037145_2_alg».proof.Proof.Gen.Kernel
import proofs.«125491_j31645319037145_2_alg».proof.Proof.Gen.KernelIdeal
import proofs.«125491_j31645319037145_2_alg».proof.Proof.Gen.ReferenceIdeal
import proofs.«125491_j31645319037145_2_alg».proof.Proof.Gen.Pre_finite_inputs
import proofs.«125491_j31645319037145_2_alg».proof.Proof.Gen.ReferenceIdeal.Run
import proofs.«125491_j31645319037145_2_alg».proof.Proof.FrameBits
import proofs.«125491_j31645319037145_2_alg».proof.Proof.FrameIdeal
import proofs.«125491_j31645319037145_2_alg».proof.Proof.KernelValue
import proofs.«125491_j31645319037145_2_alg».proof.Proof.RefSide
import proofs.«125491_j31645319037145_2_alg».proof.Proof.Finite
import proofs.«125491_j31645319037145_2_alg».proof.Proof.Bridge

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Hand.frame m ρ

/-- So does the kernel read at the ideal values. -/
theorem frame_kernelIdeal : Cert.frame_KernelIdeal := fun m ρ _ => Cert.KernelIdeal.Hand.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the two idealized programs end with equal results: the kernel's array is
    attention with the weighted sum divided once, the reference's is attention with each weight divided first, and on
    the real rows the precondition gives these are one function. -/
theorem algebraic : Cert.algebraic_KernelIdeal_ReferenceIdeal := by
  intro m ρ m' ρ' hpre hagree
  refine ⟨fun c => Cert.KernelIdeal.HandValue.G m c, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.Attn.RefSide.res_eq, (hagree c).1, (hagree c).2.1, (hagree c).2.2.1, (hagree c).2.2.2.1, (hagree c).2.2.2.2.1,
    (hagree c).2.2.2.2.2.1, (hagree c).2.2.2.2.2.2]
  obtain ⟨h0, h1, h2, h3, h4, h5, h6⟩ := Cert.Attn.Finite.reals_of_pre _ _ _ _ _ _ _ (hpre c)
  exact (Cert.Attn.wholeLast_eq_wholeFirst _ _ _ _ _ _ _ h0 h1 h2 h3 h4 h5 h6).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
